-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v124)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v124) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg6 : FVec F S3x128 .f32) (main_arg7 : FVec F S3x128 .f32) (main_arg8 : FVec F S3x128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S3x128x128 .f32) (main_arg4 : FVec F S3x128 .f32) (main_arg5 : FVec F S3x128 .f32) (main_arg6 : FVec F S3x128 .f32) (main_arg7 : FVec F S3x128 .f32) (main_arg8 : FVec F S3x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128x128 : Shape := ⟨3, ![1, 128, 128]⟩
abbrev S128x128 : Shape := ⟨2, ![128, 128]⟩
abbrev S5000x128 : Shape := ⟨2, ![5000, 128]⟩
abbrev S1700000x128 : Shape := ⟨2, ![1700000, 128]⟩
abbrev S1x128 : Shape := ⟨2, ![1, 128]⟩
abbrev S128 : Shape := ⟨1, ![128]⟩

abbrev nBuf : Space → Nat
  | .hbm => 150
  | .vmem => 42
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S3x128x128, .f32⟩
  | 4 => ⟨S3x128, .f32⟩
  | 5 => ⟨S3x128, .f32⟩
  | 6 => ⟨S3x128, .f32⟩
  | 7 => ⟨S3x128, .f32⟩
  | 8 => ⟨S3x128, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S1700000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S1700000, .f32⟩
  | 45 => ⟨S1x128x128, .f32⟩
  | 46 => ⟨S128x128, .f32⟩
  | 47 => ⟨S100000x128, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x128, .f32⟩
  | 57 => ⟨S1700000x1, .f32⟩
  | 58 => ⟨S1700000x128, .f32⟩
  | 59 => ⟨S1700000x128, .f32⟩
  | 60 => ⟨S_, .f32⟩
  | 61 => ⟨S100000x128, .f32⟩
  | 62 => ⟨S1700000x1, .i32⟩
  | 63 => ⟨S100000x128, .f32⟩
  | 64 => ⟨S1x128, .f32⟩
  | 65 => ⟨S128, .f32⟩
  | 66 => ⟨S1x128, .f32⟩
  | 67 => ⟨S1x128, .f32⟩
  | 68 => ⟨S128, .f32⟩
  | 69 => ⟨S1x128, .f32⟩
  | 70 => ⟨S1x128, .f32⟩
  | 71 => ⟨S128, .f32⟩
  | 72 => ⟨S1x128, .f32⟩
  | 73 => ⟨S1x128, .f32⟩
  | 74 => ⟨S128, .f32⟩
  | 75 => ⟨S1x128, .f32⟩
  | 76 => ⟨S1x128, .f32⟩
  | 77 => ⟨S128, .f32⟩
  | 78 => ⟨S1x128, .f32⟩
  | 79 => ⟨S100000x128, .f32⟩
  | 80 => ⟨S1x128x128, .f32⟩
  | 81 => ⟨S128x128, .f32⟩
  | 82 => ⟨S100000x128, .f32⟩
  | 83 => ⟨S_, .i32⟩
  | 84 => ⟨S1700000, .i32⟩
  | 85 => ⟨S1700000, .i1⟩
  | 86 => ⟨S_, .i32⟩
  | 87 => ⟨S1700000, .i32⟩
  | 88 => ⟨S1700000, .i32⟩
  | 89 => ⟨S1700000, .i32⟩
  | 90 => ⟨S1700000x1, .i32⟩
  | 91 => ⟨S1700000x128, .f32⟩
  | 92 => ⟨S1700000x1, .f32⟩
  | 93 => ⟨S1700000x128, .f32⟩
  | 94 => ⟨S1700000x128, .f32⟩
  | 95 => ⟨S_, .f32⟩
  | 96 => ⟨S100000x128, .f32⟩
  | 97 => ⟨S1700000x1, .i32⟩
  | 98 => ⟨S100000x128, .f32⟩
  | 99 => ⟨S1x128, .f32⟩
  | 100 => ⟨S128, .f32⟩
  | 101 => ⟨S1x128, .f32⟩
  | 102 => ⟨S1x128, .f32⟩
  | 103 => ⟨S128, .f32⟩
  | 104 => ⟨S1x128, .f32⟩
  | 105 => ⟨S1x128, .f32⟩
  | 106 => ⟨S128, .f32⟩
  | 107 => ⟨S1x128, .f32⟩
  | 108 => ⟨S1x128, .f32⟩
  | 109 => ⟨S128, .f32⟩
  | 110 => ⟨S1x128, .f32⟩
  | 111 => ⟨S1x128, .f32⟩
  | 112 => ⟨S128, .f32⟩
  | 113 => ⟨S1x128, .f32⟩
  | 114 => ⟨S100000x128, .f32⟩
  | 115 => ⟨S1x128x128, .f32⟩
  | 116 => ⟨S128x128, .f32⟩
  | 117 => ⟨S100000x128, .f32⟩
  | 118 => ⟨S_, .i32⟩
  | 119 => ⟨S1700000, .i32⟩
  | 120 => ⟨S1700000, .i1⟩
  | 121 => ⟨S_, .i32⟩
  | 122 => ⟨S1700000, .i32⟩
  | 123 => ⟨S1700000, .i32⟩
  | 124 => ⟨S1700000, .i32⟩
  | 125 => ⟨S1700000x1, .i32⟩
  | 126 => ⟨S1700000x128, .f32⟩
  | 127 => ⟨S1700000x1, .f32⟩
  | _ => ⟨S100000x128, .f32⟩

abbrev hbmTy0_1 (i : Nat) : BufTy := match i % 128 with
  | 0 => ⟨S1700000x128, .f32⟩
  | 1 => ⟨S1700000x128, .f32⟩
  | 2 => ⟨S_, .f32⟩
  | 3 => ⟨S100000x128, .f32⟩
  | 4 => ⟨S1700000x1, .i32⟩
  | 5 => ⟨S100000x128, .f32⟩
  | 6 => ⟨S1x128, .f32⟩
  | 7 => ⟨S128, .f32⟩
  | 8 => ⟨S1x128, .f32⟩
  | 9 => ⟨S1x128, .f32⟩
  | 10 => ⟨S128, .f32⟩
  | 11 => ⟨S1x128, .f32⟩
  | 12 => ⟨S1x128, .f32⟩
  | 13 => ⟨S128, .f32⟩
  | 14 => ⟨S1x128, .f32⟩
  | 15 => ⟨S1x128, .f32⟩
  | 16 => ⟨S128, .f32⟩
  | 17 => ⟨S1x128, .f32⟩
  | 18 => ⟨S1x128, .f32⟩
  | 19 => ⟨S128, .f32⟩
  | 20 => ⟨S1x128, .f32⟩
  | 21 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_c_8 : Ref sig .tc := ⟨.hbm, 83, rfl⟩
abbrev main_v64 : Ref sig .tc := ⟨.hbm, 84, rfl⟩
abbrev main_v65 : Ref sig .tc := ⟨.hbm, 85, rfl⟩
abbrev main_c_9 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_10 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_c_11 : Ref sig .tc := ⟨.hbm, 118, rfl⟩
abbrev main_v96 : Ref sig .tc := ⟨.hbm, 119, rfl⟩
abbrev main_v97 : Ref sig .tc := ⟨.hbm, 120, rfl⟩
abbrev main_c_12 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_cst_13 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg5_0 : Ref sig .tc := ⟨.vmem, 39, rfl⟩
abbrev cc5_stg6_0 : Ref sig .tc := ⟨.vmem, 40, rfl⟩
abbrev cc5_stg6_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem3_0 : DmaSem sig := 37
abbrev cc5_sem4_0 : DmaSem sig := 38
abbrev cc5_sem5_0 : DmaSem sig := 39
abbrev cc5_sem6_0 : DmaSem sig := 40
abbrev cc5_sem6_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  slices_S3x128x128_S1x128x128_0_0_0 : S3x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S100000x128.size a
  hwx5_6 : ∀ i : grid5.Coords, EltTy.bits .f32 = 32 ∨ (Rect.block (s := S100000x128) S5000x128.size (cc5_transform_6 i) (hinb5_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v59) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v60) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v60) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v63) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v76) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v79) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v82) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v85) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v88) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v91) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v92) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v92) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v94) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v95) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v108) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v111) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v114) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v117) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v120) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v123) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v124) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128x128 : Shape := ⟨3, ![1, 128, 128]⟩
abbrev S128x128 : Shape := ⟨2, ![128, 128]⟩
abbrev S1700000x128 : Shape := ⟨2, ![1700000, 128]⟩
abbrev S1x128 : Shape := ⟨2, ![1, 128]⟩
abbrev S128 : Shape := ⟨1, ![128]⟩

abbrev nBuf : Space → Nat
  | .hbm => 198
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S3x128x128, .f32⟩
  | 4 => ⟨S3x128, .f32⟩
  | 5 => ⟨S3x128, .f32⟩
  | 6 => ⟨S3x128, .f32⟩
  | 7 => ⟨S3x128, .f32⟩
  | 8 => ⟨S3x128, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S1700000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S1700000, .f32⟩
  | 45 => ⟨S1x128x128, .f32⟩
  | 46 => ⟨S128x128, .f32⟩
  | 47 => ⟨S100000x128, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x128, .f32⟩
  | 57 => ⟨S1700000x1, .f32⟩
  | 58 => ⟨S1700000x128, .f32⟩
  | 59 => ⟨S1700000x128, .f32⟩
  | 60 => ⟨S_, .f32⟩
  | 61 => ⟨S100000x128, .f32⟩
  | 62 => ⟨S1700000x1, .i32⟩
  | 63 => ⟨S100000x128, .f32⟩
  | 64 => ⟨S1x128, .f32⟩
  | 65 => ⟨S128, .f32⟩
  | 66 => ⟨S1x128, .f32⟩
  | 67 => ⟨S100000x128, .f32⟩
  | 68 => ⟨S100000x128, .f32⟩
  | 69 => ⟨S1x128, .f32⟩
  | 70 => ⟨S128, .f32⟩
  | 71 => ⟨S1x128, .f32⟩
  | 72 => ⟨S128, .f32⟩
  | 73 => ⟨S1x128, .f32⟩
  | 74 => ⟨S100000x128, .f32⟩
  | 75 => ⟨S100000x128, .f32⟩
  | 76 => ⟨S1x128, .f32⟩
  | 77 => ⟨S100000x128, .f32⟩
  | 78 => ⟨S100000x128, .f32⟩
  | 79 => ⟨S1x128, .f32⟩
  | 80 => ⟨S128, .f32⟩
  | 81 => ⟨S_, .f32⟩
  | 82 => ⟨S128, .f32⟩
  | 83 => ⟨S128, .f32⟩
  | 84 => ⟨S128, .f32⟩
  | 85 => ⟨S1x128, .f32⟩
  | 86 => ⟨S100000x128, .f32⟩
  | 87 => ⟨S100000x128, .f32⟩
  | 88 => ⟨S1x128, .f32⟩
  | 89 => ⟨S128, .f32⟩
  | 90 => ⟨S1x128, .f32⟩
  | 91 => ⟨S100000x128, .f32⟩
  | 92 => ⟨S100000x128, .f32⟩
  | 93 => ⟨S_, .f32⟩
  | 94 => ⟨S100000x128, .f32⟩
  | 95 => ⟨S100000x128, .f32⟩
  | 96 => ⟨S1x128x128, .f32⟩
  | 97 => ⟨S128x128, .f32⟩
  | 98 => ⟨S100000x128, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000x128, .f32⟩
  | 108 => ⟨S1700000x1, .f32⟩
  | 109 => ⟨S1700000x128, .f32⟩
  | 110 => ⟨S1700000x128, .f32⟩
  | 111 => ⟨S_, .f32⟩
  | 112 => ⟨S100000x128, .f32⟩
  | 113 => ⟨S1700000x1, .i32⟩
  | 114 => ⟨S100000x128, .f32⟩
  | 115 => ⟨S1x128, .f32⟩
  | 116 => ⟨S128, .f32⟩
  | 117 => ⟨S1x128, .f32⟩
  | 118 => ⟨S100000x128, .f32⟩
  | 119 => ⟨S100000x128, .f32⟩
  | 120 => ⟨S1x128, .f32⟩
  | 121 => ⟨S128, .f32⟩
  | 122 => ⟨S1x128, .f32⟩
  | 123 => ⟨S128, .f32⟩
  | 124 => ⟨S1x128, .f32⟩
  | 125 => ⟨S100000x128, .f32⟩
  | 126 => ⟨S100000x128, .f32⟩
  | 127 => ⟨S1x128, .f32⟩
  | _ => ⟨S100000x128, .f32⟩

abbrev hbmTy0_1 (i : Nat) : BufTy := match i % 128 with
  | 0 => ⟨S100000x128, .f32⟩
  | 1 => ⟨S100000x128, .f32⟩
  | 2 => ⟨S1x128, .f32⟩
  | 3 => ⟨S128, .f32⟩
  | 4 => ⟨S_, .f32⟩
  | 5 => ⟨S128, .f32⟩
  | 6 => ⟨S128, .f32⟩
  | 7 => ⟨S128, .f32⟩
  | 8 => ⟨S1x128, .f32⟩
  | 9 => ⟨S100000x128, .f32⟩
  | 10 => ⟨S100000x128, .f32⟩
  | 11 => ⟨S1x128, .f32⟩
  | 12 => ⟨S128, .f32⟩
  | 13 => ⟨S1x128, .f32⟩
  | 14 => ⟨S100000x128, .f32⟩
  | 15 => ⟨S100000x128, .f32⟩
  | 16 => ⟨S_, .f32⟩
  | 17 => ⟨S100000x128, .f32⟩
  | 18 => ⟨S100000x128, .f32⟩
  | 19 => ⟨S1x128x128, .f32⟩
  | 20 => ⟨S128x128, .f32⟩
  | 21 => ⟨S100000x128, .f32⟩
  | 22 => ⟨S_, .i32⟩
  | 23 => ⟨S1700000, .i32⟩
  | 24 => ⟨S1700000, .i1⟩
  | 25 => ⟨S_, .i32⟩
  | 26 => ⟨S1700000, .i32⟩
  | 27 => ⟨S1700000, .i32⟩
  | 28 => ⟨S1700000, .i32⟩
  | 29 => ⟨S1700000x1, .i32⟩
  | 30 => ⟨S1700000x128, .f32⟩
  | 31 => ⟨S1700000x1, .f32⟩
  | 32 => ⟨S1700000x128, .f32⟩
  | 33 => ⟨S1700000x128, .f32⟩
  | 34 => ⟨S_, .f32⟩
  | 35 => ⟨S100000x128, .f32⟩
  | 36 => ⟨S1700000x1, .i32⟩
  | 37 => ⟨S100000x128, .f32⟩
  | 38 => ⟨S1x128, .f32⟩
  | 39 => ⟨S128, .f32⟩
  | 40 => ⟨S1x128, .f32⟩
  | 41 => ⟨S100000x128, .f32⟩
  | 42 => ⟨S100000x128, .f32⟩
  | 43 => ⟨S1x128, .f32⟩
  | 44 => ⟨S128, .f32⟩
  | 45 => ⟨S1x128, .f32⟩
  | 46 => ⟨S128, .f32⟩
  | 47 => ⟨S1x128, .f32⟩
  | 48 => ⟨S100000x128, .f32⟩
  | 49 => ⟨S100000x128, .f32⟩
  | 50 => ⟨S1x128, .f32⟩
  | 51 => ⟨S100000x128, .f32⟩
  | 52 => ⟨S100000x128, .f32⟩
  | 53 => ⟨S1x128, .f32⟩
  | 54 => ⟨S128, .f32⟩
  | 55 => ⟨S_, .f32⟩
  | 56 => ⟨S128, .f32⟩
  | 57 => ⟨S128, .f32⟩
  | 58 => ⟨S128, .f32⟩
  | 59 => ⟨S1x128, .f32⟩
  | 60 => ⟨S100000x128, .f32⟩
  | 61 => ⟨S100000x128, .f32⟩
  | 62 => ⟨S1x128, .f32⟩
  | 63 => ⟨S128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_8 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_call0_cst : Ref sig .tc := ⟨.hbm, 93, rfl⟩
abbrev main_call0_v0 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_c_9 : Ref sig .tc := ⟨.hbm, 99, rfl⟩
abbrev main_v77 : Ref sig .tc := ⟨.hbm, 100, rfl⟩
abbrev main_v78 : Ref sig .tc := ⟨.hbm, 101, rfl⟩
abbrev main_c_10 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_11 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_cst_12 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_call1_cst : Ref sig .tc := ⟨.hbm, 144, rfl⟩
abbrev main_call1_v0 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_c_13 : Ref sig .tc := ⟨.hbm, 150, rfl⟩
abbrev main_v122 : Ref sig .tc := ⟨.hbm, 151, rfl⟩
abbrev main_v123 : Ref sig .tc := ⟨.hbm, 152, rfl⟩
abbrev main_c_14 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_cst_15 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_cst_16 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_call2_cst : Ref sig .tc := ⟨.hbm, 195, rfl⟩
abbrev main_call2_v0 : Ref sig .tc := ⟨.hbm, 196, rfl⟩
abbrev main_v163 : Ref sig .tc := ⟨.hbm, 197, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  slices_S3x128x128_S1x128x128_0_0_0 : S3x128x128.Slices ![0, 0, 0] S1x128x128
  shapeCasts_S1x128x128_S128x128 : S1x128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KRun.lean ====
/-
  The idealized kernel's run with its result named.

  The program is six pipelined regions among stretches of host operations. Its run ends with every unscoped buffer at
  the contents the fold through those twelve segments leaves (`Gen.W12`): each stretch applies its operations to the
  contents it finds, each region replaces its output array by what its write-backs leave. Read at the result buffer,
  that fold is the value the value lemmas open; read at an argument, it is the launch contents.
-/
import proofs.«164004_j66537633349984_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the fold's
    contents and the arguments as launched. -/
theorem run : θ_run defs (onTc (τ := τ) (main (F := F))) ⟨m, fun _ => 0, ρ⟩ (fun r => ∀ c : Dev nD,
      r.2.mem ((c.tc : Thread nD τ).loc main_v124) = W12 m ρ c (Proc.devRef .tc main_v124)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v124 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c)⟩)

end Cert.KernelIdeal.KRun

end
-- ==== Proof.RAgg.lean ====
/-
  The aggregation over the graph's edges, as a function of the edge list and of the array it aggregates.

  The edge array has two rows of 1600000 node numbers: sources and destinations. Both programs append one self loop
  per node to each row, count each node's incoming edges, take the inverse square root of the count (at least 1e-12),
  and give edge e the coefficient of its source times that of its destination. The aggregation of a 100000 × 128
  array then gathers the row of each edge's source (a negative number wrapped by adding the node count), scales it by
  the edge's coefficient, and adds it into the row of the edge's destination, starting from zeros. It is kept here as
  one whole-array function: both programs apply the same one, so nothing about it is ever opened.
-/
import proofs.«164004_j66537633349984_1_alg».proof.Proof.Gen.ReferenceIdeal.Read

noncomputable section

namespace Cert.ReferenceIdeal.RefValue

open Cert.ReferenceIdeal Cert.ReferenceIdeal.Gen Cert.ReferenceIdeal.Read Idealize.ShloMosaic

/-- Gather the rows of `hw` at the wrapped source indices, scale row e by edge e's coefficient, and scatter-add the
    rows into a zero array at the destination indices. `x1` is the 2 × 1600000 edge array. -/
def aggR (x1 : (⟨S2x1600000, .i32⟩ : BufTy).Contents (Elt Ideal)) (hw : (⟨S100000x128, .f32⟩ : BufTy).Contents (Elt Ideal)) :
    (⟨S100000x128, .f32⟩ : BufTy).Contents (Elt Ideal) :=
  Host.scatterAdd (F := Ideal) (φ := .f32) scatter_S100000x128_S1700000x1_S1700000x128_1_0_0_1 (val_main_v42 (F := Ideal)) (val_main_v43 (F := Ideal) x1)
    (mulf (F := Ideal) (φ := .f32) (Host.gather gather_S100000x128_S1700000x1_S1700000x128_1_0_n_n_0_1_1128 hw (val_main_v37 (F := Ideal) x1))
      (val_main_v40 (F := Ideal) x1))

end Cert.ReferenceIdeal.RefValue

end
-- ==== Proof.LibDense.lean ====
/-
  A dense layer read entry by entry, on the extended reals.

  The product of an M×K matrix X by a K×N matrix W has, at entry (r, c), the sum over k of X(r,k)·W(k,c). A tiled
  kernel computes it block of rows by block of rows, each block a product accumulated into a zero splat; a host
  program computes it with one product and no accumulator. Both are this one function, and since each output entry is
  a sum over the contracted coordinate only, a block of rows of the product is the product of that block of rows.
  A bias vector b added along the rows followed by max(·, 0) is read the same way: entry (r, k) is
  max(A(r,k) + b(k), 0). Nothing here cancels or distributes, so every statement holds at the infinities too.
  Stated for any extents.
-/
import Idealize.ShloMosaic.Lib.StackMember
import Idealize.ShloMosaic.Lib.KernelVsHost
import Idealize.ShloMosaic.Lib.ValueLayout
import Idealize.ShloMosaic.Lib.ValueIdx
import Idealize.ShloMosaic.Lib.Pipeline.Value
import Idealize.ShloMosaic.PureOps.Ideal.Laws

noncomputable section

namespace Cert.Dense

open Idealize.ShloMosaic Idealize.ShloMosaic.ValueIdx
open scoped BigOperators

variable {M K N : ℕ}

/-- The float zero word read at the ideal values. -/
abbrev zeroWord : EReal := Ideal.ofBits .f32 0x00000000#32

/-- The product of an M×K matrix by a K×N matrix: entry (r, c) is the sum over k of X(r,k)·W(k,c). -/
def matProd (X : (⟨2, ![M, K]⟩ : Shape).Idx → EReal) (W : (⟨2, ![K, N]⟩ : Shape).Idx → EReal) :
    (⟨2, ![M, N]⟩ : Shape).Idx → EReal :=
  fun i => ∑ k : Fin K, X (ix2 (i 0) k) * W (ix2 k (i 1))

theorem matProd_apply (X : (⟨2, ![M, K]⟩ : Shape).Idx → EReal) (W : (⟨2, ![K, N]⟩ : Shape).Idx → EReal)
    (r : Fin M) (c : Fin N) : matProd X W (ix2 r c) = ∑ k : Fin K, X (ix2 r k) * W (ix2 k c) := rfl

/-- A bias vector added along the rows of an M×K matrix, then the positive part: entry (r, k) is max(A(r,k) + b(k), 0). -/
def biasRelu (A : (⟨2, ![M, K]⟩ : Shape).Idx → EReal) (b : (⟨1, ![K]⟩ : Shape).Idx → EReal) :
    (⟨2, ![M, K]⟩ : Shape).Idx → EReal :=
  fun i => max (A i + b (ix1 (i 1))) zeroWord

theorem biasRelu_apply (A : (⟨2, ![M, K]⟩ : Shape).Idx → EReal) (b : (⟨1, ![K]⟩ : Shape).Idx → EReal)
    (r : Fin M) (k : Fin K) : biasRelu A b (ix2 r k) = max (A (ix2 r k) + b (ix1 k)) zeroWord := rfl

/-- The host's product of two matrices, with the plain contraction (rows of the left against columns of the right), is
    `matProd`. -/
theorem dotGeneral_eq_matProd (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) :
    Host.dotGeneral d none X W = matProd X W := by
  subst hd
  funext i
  obtain ⟨r, c, rfl⟩ : ∃ (r : Fin M) (c : Fin N), i = ix2 r c := ⟨i 0, i 1, eq_ix2 i⟩
  rw [StackMember.dotGeneral_plain_apply, matProd_apply]

/-- A kernel's product accumulated into the zero splat, with the plain contraction, is `matProd`: the accumulator
    contributes 0 + s = s. -/
theorem matmul_zero_eq_matProd (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) :
    matmul d none X W (constant ⟨2, ![M, N]⟩ .f32 0x00000000#32) = matProd X W := by
  rw [matmul_zero_eq_dotGeneral]
  exact dotGeneral_eq_matProd d hd X W

/-- The kernel's spelling of the bias step on a block — the bias held as a one-row matrix and broadcast down the rows,
    added, and compared with a zero splat — is `biasRelu` of the row read as a vector. -/
theorem blockBiasRelu_eq (A : FVec Ideal ⟨2, ![M, K]⟩ .f32) (B : FVec Ideal ⟨2, ![1, K]⟩ .f32)
    (hb : (⟨2, ![1, K]⟩ : Shape).Broadcasts ⟨2, ![M, K]⟩) :
    maximumf (addf A (broadcastTo ⟨2, ![M, K]⟩ B hb)) (broadcast ⟨2, ![M, K]⟩ (Scalar.ofBits (F := Ideal) .f32 0x00000000#32))
      = biasRelu A (fun j => B (ix2 (0 : Fin 1) (j 0))) := by
  funext i
  obtain ⟨r, k, rfl⟩ : ∃ (r : Fin M) (k : Fin K), i = ix2 r k := ⟨i 0, i 1, eq_ix2 i⟩
  rw [maximumf_apply, addf_apply, broadcastTo_1b_ab_apply, biasRelu_apply]
  rfl

end Cert.Dense

end
-- ==== Proof.Spec.lean ====
/-
  A three-layer graph encoder, entry by entry, on the extended reals.

  One layer takes node features H (100000 × 128), multiplies them by the layer's 128 × 128 weight matrix, aggregates the
  product over the graph's edges (the aggregation is a fixed function of the edge list; it is carried here as a
  parameter `agg`, since both programs apply the same one), adds the layer's bias, normalises with the layer's running
  mean and variance, scales and shifts, and takes the positive part:

    out(r, q) = max( γ(q) · ((agg(H·W)(r, q) + b(q)) − μ(q)) · rsqrt(σ²(q) + ε) + β(q), 0 ).

  The association is the one both programs use — γ times the centred value first, then the inverse deviation — so the
  two sides are the same expression and nothing here needs a finite entry. The five parameter families are stored as
  3 × 128 arrays, one row per layer, and the weights as a 3 × 128 × 128 array; `prow` and `weight` pick a layer's part.
  The network is three such layers, each fed the previous one's output.
-/
import proofs.«164004_j66537633349984_1_alg».proof.Proof.LibDense

noncomputable section

namespace Cert.GcnBn

open Idealize.ShloMosaic Idealize.ShloMosaic.ValueIdx
open scoped BigOperators

/-- Node features: 100000 nodes, 128 channels. -/
abbrev SN : Shape := ⟨2, ![100000, 128]⟩
/-- One weight matrix. -/
abbrev SW : Shape := ⟨2, ![128, 128]⟩
/-- The three layers' weight matrices. -/
abbrev SW3 : Shape := ⟨3, ![3, 128, 128]⟩
/-- A parameter family: one row of 128 per layer. -/
abbrev SP : Shape := ⟨2, ![3, 128]⟩
/-- One layer's parameters held as a one-row matrix. -/
abbrev SR : Shape := ⟨2, ![1, 128]⟩

/-- The float word of the variance offset ε (the single-precision value nearest 1e-5) read at the ideal values. -/
abbrev epsWord : EReal := Ideal.ofBits .f32 0x3727C5AC#32

/-- Layer `l`'s weight matrix: entry (k, j) of slice `l`. -/
def weight (W : SW3.Idx → EReal) (l : Fin 3) : SW.Idx → EReal := fun j => W (ix3 l (j 0) (j 1))

theorem weight_apply (W : SW3.Idx → EReal) (l : Fin 3) (k j : Fin 128) : weight W l (ix2 k j) = W (ix3 l k j) := rfl

/-- Layer `l`'s row of a parameter family. -/
def prow (P : SP.Idx → EReal) (l : Fin 3) : Fin 128 → EReal := fun q => P (ix2 l q)

/-- A one-row matrix read as a vector. -/
def rowv (B : SR.Idx → EReal) : Fin 128 → EReal := fun q => B (ix2 (0 : Fin 1) q)

/-- Bias, normalisation by running statistics, scale and shift, positive part, channel by channel:
    entry (r, q) is max(γ(q)·((A(r,q) + b(q)) − μ(q))·rsqrt(σ²(q) + ε) + β(q), 0). -/
def bnRelu (A : SN.Idx → EReal) (b g be mu var : Fin 128 → EReal) : SN.Idx → EReal :=
  fun i => max (g (i 1) * ((A i + b (i 1)) - mu (i 1)) * Ideal.rsqrt (var (i 1) + epsWord) + be (i 1)) Cert.Dense.zeroWord

theorem bnRelu_apply (A : SN.Idx → EReal) (b g be mu var : Fin 128 → EReal) (r : Fin 100000) (q : Fin 128) :
    bnRelu A b g be mu var (ix2 r q)
      = max (g q * ((A (ix2 r q) + b q) - mu q) * Ideal.rsqrt (var q + epsWord) + be q) Cert.Dense.zeroWord := rfl

/-- The same step with each parameter held as a one-row matrix (bias, scale, shift, mean, variance, in that order). -/
def bnRows (A : SN.Idx → EReal) (b g be mu var : SR.Idx → EReal) : SN.Idx → EReal :=
  bnRelu A (rowv b) (rowv g) (rowv be) (rowv mu) (rowv var)

/-- One layer: product with the layer's weights, aggregation over the edges, then the normalised positive part. -/
def layer (agg : (SN.Idx → EReal) → (SN.Idx → EReal)) (l : Fin 3) (H : SN.Idx → EReal) (W : SW3.Idx → EReal)
    (b g be mu var : SP.Idx → EReal) : SN.Idx → EReal :=
  bnRelu (agg (Cert.Dense.matProd H (weight W l))) (prow b l) (prow g l) (prow be l) (prow mu l) (prow var l)

/-- The network: three layers, each fed the one before. -/
def net (agg : (SN.Idx → EReal) → (SN.Idx → EReal)) (x : SN.Idx → EReal) (W : SW3.Idx → EReal)
    (b g be mu var : SP.Idx → EReal) : SN.Idx → EReal :=
  layer agg 2 (layer agg 1 (layer agg 0 x W b g be mu var) W b g be mu var) W b g be mu var

end Cert.GcnBn

end
-- ==== Proof.RWeights.lean ====
/-
  The three weight matrices of the reference are the three slices of the stacked weights.

  Each layer takes one 1 × 128 × 128 slice of the 3 × 128 × 128 array and reshapes it to 128 × 128. Row-major order
  sends entry (k, c) of the matrix to position k·128 + c of the slice, that is to its entry (0, k, c), which the slice
  reads at (layer, k, c) of the stack.
-/
import proofs.«164004_j66537633349984_1_alg».proof.Proof.Gen.ReferenceIdeal.Read
import proofs.«164004_j66537633349984_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- Layer 0: the slice keeps coordinates (k, c) of slice 0 and the reshape drops the unit axis. -/
theorem weight0 (x3 : (⟨S3x128x128, .f32⟩ : BufTy).Contents (Elt Ideal)) :
    val_main_v30 (F := Ideal) x3 = Cert.GcnBn.weight x3 0 := by
  funext j
  obtain ⟨k, c, rfl⟩ : ∃ (k c : Fin 128), j = ix2 k c := ⟨j 0, j 1, eq_ix2 j⟩
  rw [val_main_v30_apply, val_main_v29_apply, Cert.GcnBn.weight_apply]
  congr 1
  funext a
  refine Fin.ext ?_
  have hk := k.isLt
  have hc := c.isLt
  match a with
  | ⟨0, _⟩ => rfl
  | ⟨1, _⟩ => show (k.val * 128 + c.val) / 128 % 128 = k.val; omega
  | ⟨2, _⟩ => show (k.val * 128 + c.val) % 128 = c.val; omega

/-- Layer 1: the slice keeps coordinates (k, c) of slice 1 and the reshape drops the unit axis. -/
theorem weight1 (x3 : (⟨S3x128x128, .f32⟩ : BufTy).Contents (Elt Ideal)) :
    val_main_v75 (F := Ideal) x3 = Cert.GcnBn.weight x3 1 := by
  funext j
  obtain ⟨k, c, rfl⟩ : ∃ (k c : Fin 128), j = ix2 k c := ⟨j 0, j 1, eq_ix2 j⟩
  rw [val_main_v75_apply, val_main_v74_apply, Cert.GcnBn.weight_apply]
  congr 1
  funext a
  refine Fin.ext ?_
  have hk := k.isLt
  have hc := c.isLt
  match a with
  | ⟨0, _⟩ => rfl
  | ⟨1, _⟩ => show (k.val * 128 + c.val) / 128 % 128 = k.val; omega
  | ⟨2, _⟩ => show (k.val * 128 + c.val) % 128 = c.val; omega

/-- Layer 2: the slice keeps coordinates (k, c) of slice 2 and the reshape drops the unit axis. -/
theorem weight2 (x3 : (⟨S3x128x128, .f32⟩ : BufTy).Contents (Elt Ideal)) :
    val_main_v120 (F := Ideal) x3 = Cert.GcnBn.weight x3 2 := by
  funext j
  obtain ⟨k, c, rfl⟩ : ∃ (k c : Fin 128), j = ix2 k c := ⟨j 0, j 1, eq_ix2 j⟩
  rw [val_main_v120_apply, val_main_v119_apply, Cert.GcnBn.weight_apply]
  congr 1
  funext a
  refine Fin.ext ?_
  have hk := k.isLt
  have hc := c.isLt
  match a with
  | ⟨0, _⟩ => rfl
  | ⟨1, _⟩ => show (k.val * 128 + c.val) / 128 % 128 = k.val; omega
  | ⟨2, _⟩ => show (k.val * 128 + c.val) % 128 = c.val; omega

end Cert.ReferenceIdeal.RefValue

end
-- ==== Proof.RValue.lean ====
/-
  The reference program's result is the three-layer network of the specification.

  Each layer of the reference multiplies its input by one 128 × 128 slice of the stacked weights, gathers the rows of the
  product at the source ends of the edges, scales each by its edge coefficient, scatter-adds them at the destination
  ends, and then applies, entry by entry, the bias, the running statistics, the scale and shift and the positive part.
  The five parameter rows reach the 100000 × 128 array through a slice of one row, a reshape and two broadcasts, so
  entry (r, q) of each is the parameter at (layer, q); the inverse deviation is computed on the row of 128 and broadcast
  the same way. With those readings both sides of each layer are the same expression
  max(γ·((A + b) − μ)·rsqrt(σ² + ε) + β, 0) with the same association, so no entry needs to be finite. The
  gather–scale–scatter step stays whole, as one function of the edge array and the product: the three layers spell it
  with separately named but identical index stages.
-/
import proofs.«164004_j66537633349984_1_alg».proof.Proof.RAgg
import proofs.«164004_j66537633349984_1_alg».proof.Proof.RWeights

noncomputable section

namespace Cert.ReferenceIdeal.RefValue

open Cert.ReferenceIdeal Cert.ReferenceIdeal.Gen Cert.ReferenceIdeal.Read Idealize.ShloMosaic Idealize.ShloMosaic.ValueIdx

/-! ### The first layer -/

/-- Row 0 of a 3 × 128 parameter family, broadcast down the 100000 rows (the bias's chain of slice, reshape and two
    broadcasts): entry (r, q) is P(0, q). -/
theorem bias0 (P : (⟨S3x128, .f32⟩ : BufTy).Contents (Elt Ideal)) (r : Fin 100000) (q : Fin 128) :
    val_main_v48 (F := Ideal) P (ix2 r q) = P (ix2 (0 : Fin 3) q) := by
  rw [val_main_v48_apply, val_main_v47_apply, val_main_v46_apply, val_main_v45_apply]
  congr 1
  funext a
  refine Fin.ext ?_
  match a with
  | ⟨0, _⟩ => rfl
  | ⟨1, _⟩ => exact Nat.mod_eq_of_lt q.isLt

/-- The running mean's, the scale's and the shift's chains are the bias's chain applied to another array. -/
theorem mean0 (P : (⟨S3x128, .f32⟩ : BufTy).Contents (Elt Ideal)) (r : Fin 100000) (q : Fin 128) :
    val_main_v55 (F := Ideal) P (ix2 r q) = P (ix2 (0 : Fin 3) q) := bias0 P r q

theorem scale0 (P : (⟨S3x128, .f32⟩ : BufTy).Contents (Elt Ideal)) (r : Fin 100000) (q : Fin 128) :
    val_main_v58 (F := Ideal) P (ix2 r q) = P (ix2 (0 : Fin 3) q) := bias0 P r q

theorem shift0 (P : (⟨S3x128, .f32⟩ : BufTy).Contents (Elt Ideal)) (r : Fin 100000) (q : Fin 128) :
    val_main_v71 (F := Ideal) P (ix2 r q) = P (ix2 (0 : Fin 3) q) := bias0 P r q

/-- The inverse deviation is taken on the row of 128 variances and then broadcast down the rows: entry (r, q) is
    rsqrt(σ²(0, q) + ε). -/
theorem invDev0 (P : (⟨S3x128, .f32⟩ : BufTy).Contents (Elt Ideal)) (r : Fin 100000) (q : Fin 128) :
    val_main_v66 (F := Ideal) P (ix2 r q) = Ideal.rsqrt (P (ix2 (0 : Fin 3) q) + Cert.GcnBn.epsWord) := by
  rw [val_main_v66_apply, val_main_v65_apply, val_main_v64_apply, val_main_v63_apply, val_main_v62_apply,
    val_main_v61_apply, val_main_v60_apply, val_main_cst_8_apply]
  have e : idx_main_v60 (idx_main_v61 (idx_main_v65 (idx_main_v66 (ix2 r q)))) = ix2 (0 : Fin 3) q := by
    funext a
    refine Fin.ext ?_
    match a with
    | ⟨0, _⟩ => rfl
    | ⟨1, _⟩ => exact Nat.mod_eq_of_lt q.isLt
  rw [e]
  rfl

/-- The zero splat the positive part compares with. -/
theorem zero0 (i : S100000x128.Idx) : val_main_call0_v0 (F := Ideal) i = Cert.Dense.zeroWord := by
  rw [val_main_call0_v0_apply, val_main_call0_cst_apply]
  rfl

/-- The scatter of the layer is the aggregation of the product of the layer's input by its weight matrix. -/
theorem agg0 (x0 : (⟨S100000x128, .f32⟩ : BufTy).Contents (Elt Ideal)) (x1 : (⟨S2x1600000, .i32⟩ : BufTy).Contents (Elt Ideal))
    (x3 : (⟨S3x128x128, .f32⟩ : BufTy).Contents (Elt Ideal)) :
    val_main_v44 (F := Ideal) x0 x1 x3 = aggR x1 (Cert.Dense.matProd x0 (Cert.GcnBn.weight x3 0)) := by
  unfold val_main_v44 val_main_v41 val_main_v38 val_main_v31
  rw [weight0 x3, Cert.Dense.dotGeneral_eq_matProd dot_S100000x128_S128x128_S100000x128_1_0_0_1_n_n rfl]
  rfl

/-- The first layer of the reference is the specification's layer 0. -/
theorem layer0 (x0 : (⟨S100000x128, .f32⟩ : BufTy).Contents (Elt Ideal)) (x1 : (⟨S2x1600000, .i32⟩ : BufTy).Contents (Elt Ideal))
    (x3 : (⟨S3x128x128, .f32⟩ : BufTy).Contents (Elt Ideal)) (x4 x5 x6 x7 x8 : (⟨S3x128, .f32⟩ : BufTy).Contents (Elt Ideal)) :
    val_main_v73 (F := Ideal) x0 x1 x3 x4 x5 x6 x7 x8 = Cert.GcnBn.layer (aggR x1) 0 x0 x3 x4 x5 x6 x7 x8 := by
  funext i
  obtain ⟨r, q, rfl⟩ : ∃ (r : Fin 100000) (q : Fin 128), i = ix2 r q := ⟨i 0, i 1, eq_ix2 i⟩
  unfold Cert.GcnBn.layer
  rw [Cert.GcnBn.bnRelu_apply, val_main_v73_apply, val_main_v72_apply, val_main_v67_apply, val_main_v59_apply,
    val_main_v56_apply, val_main_v49_apply, agg0, bias0 x4 r q, mean0 x7 r q, scale0 x5 r q, shift0 x6 r q, invDev0 x8 r q, zero0]
  rfl

/-! ### The second layer -/

/-- Row 1 of a 3 × 128 parameter family, broadcast down the 100000 rows (the bias's chain of slice, reshape and two
    broadcasts): entry (r, q) is P(1, q). -/
theorem bias1 (P : (⟨S3x128, .f32⟩ : BufTy).Contents (Elt Ideal)) (r : Fin 100000) (q : Fin 128) :
    val_main_v93 (F := Ideal) P (ix2 r q) = P (ix2 (1 : Fin 3) q) := by
  rw [val_main_v93_apply, val_main_v92_apply, val_main_v91_apply, val_main_v90_apply]
  congr 1
  funext a
  refine Fin.ext ?_
  match a with
  | ⟨0, _⟩ => rfl
  | ⟨1, _⟩ => exact Nat.mod_eq_of_lt q.isLt

/-- The running mean's, the scale's and the shift's chains are the bias's chain applied to another array. -/
theorem mean1 (P : (⟨S3x128, .f32⟩ : BufTy).Contents (Elt Ideal)) (r : Fin 100000) (q : Fin 128) :
    val_main_v100 (F := Ideal) P (ix2 r q) = P (ix2 (1 : Fin 3) q) := bias1 P r q

theorem scale1 (P : (⟨S3x128, .f32⟩ : BufTy).Contents (Elt Ideal)) (r : Fin 100000) (q : Fin 128) :
    val_main_v103 (F := Ideal) P (ix2 r q) = P (ix2 (1 : Fin 3) q) := bias1 P r q

theorem shift1 (P : (⟨S3x128, .f32⟩ : BufTy).Contents (Elt Ideal)) (r : Fin 100000) (q : Fin 128) :
    val_main_v116 (F := Ideal) P (ix2 r q) = P (ix2 (1 : Fin 3) q) := bias1 P r q

/-- The inverse deviation is taken on the row of 128 variances and then broadcast down the rows: entry (r, q) is
    rsqrt(σ²(1, q) + ε). -/
theorem invDev1 (P : (⟨S3x128, .f32⟩ : BufTy).Contents (Elt Ideal)) (r : Fin 100000) (q : Fin 128) :
    val_main_v111 (F := Ideal) P (ix2 r q) = Ideal.rsqrt (P (ix2 (1 : Fin 3) q) + Cert.GcnBn.epsWord) := by
  rw [val_main_v111_apply, val_main_v110_apply, val_main_v109_apply, val_main_v108_apply, val_main_v107_apply,
    val_main_v106_apply, val_main_v105_apply, val_main_cst_12_apply]
  have e : idx_main_v105 (idx_main_v106 (idx_main_v110 (idx_main_v111 (ix2 r q)))) = ix2 (1 : Fin 3) q := by
    funext a
    refine Fin.ext ?_
    match a with
    | ⟨0, _⟩ => rfl
    | ⟨1, _⟩ => exact Nat.mod_eq_of_lt q.isLt
  rw [e]
  rfl

/-- The zero splat the positive part compares with. -/
theorem zero1 (i : S100000x128.Idx) : val_main_call1_v0 (F := Ideal) i = Cert.Dense.zeroWord := by
  rw [val_main_call1_v0_apply, val_main_call1_cst_apply]
  rfl

/-- The scatter of the layer is the aggregation of the product of the layer's input by its weight matrix. -/
theorem agg1 (x0 : (⟨S100000x128, .f32⟩ : BufTy).Contents (Elt Ideal)) (x1 : (⟨S2x1600000, .i32⟩ : BufTy).Contents (Elt Ideal))
    (x3 : (⟨S3x128x128, .f32⟩ : BufTy).Contents (Elt Ideal)) (x4 x5 x6 x7 x8 : (⟨S3x128, .f32⟩ : BufTy).Contents (Elt Ideal)) :
    val_main_v89 (F := Ideal) x0 x1 x3 x4 x5 x6 x7 x8
      = aggR x1 (Cert.Dense.matProd (val_main_v73 (F := Ideal) x0 x1 x3 x4 x5 x6 x7 x8) (Cert.GcnBn.weight x3 1)) := by
  unfold val_main_v89 val_main_v86 val_main_v83 val_main_v76
  rw [weight1 x3, Cert.Dense.dotGeneral_eq_matProd dot_S100000x128_S128x128_S100000x128_1_0_0_1_n_n rfl]
  rfl

/-- The second layer of the reference is the specification's layer 1. -/
theorem layer1 (x0 : (⟨S100000x128, .f32⟩ : BufTy).Contents (Elt Ideal)) (x1 : (⟨S2x1600000, .i32⟩ : BufTy).Contents (Elt Ideal))
    (x3 : (⟨S3x128x128, .f32⟩ : BufTy).Contents (Elt Ideal)) (x4 x5 x6 x7 x8 : (⟨S3x128, .f32⟩ : BufTy).Contents (Elt Ideal)) :
    val_main_v118 (F := Ideal) x0 x1 x3 x4 x5 x6 x7 x8
      = Cert.GcnBn.layer (aggR x1) 1 (val_main_v73 (F := Ideal) x0 x1 x3 x4 x5 x6 x7 x8) x3 x4 x5 x6 x7 x8 := by
  funext i
  obtain ⟨r, q, rfl⟩ : ∃ (r : Fin 100000) (q : Fin 128), i = ix2 r q := ⟨i 0, i 1, eq_ix2 i⟩
  unfold Cert.GcnBn.layer
  rw [Cert.GcnBn.bnRelu_apply, val_main_v118_apply, val_main_v117_apply, val_main_v112_apply, val_main_v104_apply,
    val_main_v101_apply, val_main_v94_apply, agg1, bias1 x4 r q, mean1 x7 r q, scale1 x5 r q, shift1 x6 r q, invDev1 x8 r q, zero1]
  rfl

/-! ### The third layer -/

/-- Row 2 of a 3 × 128 parameter family, broadcast down the 100000 rows (the bias's chain of slice, reshape and two
    broadcasts): entry (r, q) is P(2, q). -/
theorem bias2 (P : (⟨S3x128, .f32⟩ : BufTy).Contents (Elt Ideal)) (r : Fin 100000) (q : Fin 128) :
    val_main_v138 (F := Ideal) P (ix2 r q) = P (ix2 (2 : Fin 3) q) := by
  rw [val_main_v138_apply, val_main_v137_apply, val_main_v136_apply, val_main_v135_apply]
  congr 1
  funext a
  refine Fin.ext ?_
  match a with
  | ⟨0, _⟩ => rfl
  | ⟨1, _⟩ => exact Nat.mod_eq_of_lt q.isLt

/-- The running mean's, the scale's and the shift's chains are the bias's chain applied to another array. -/
theorem mean2 (P : (⟨S3x128, .f32⟩ : BufTy).Contents (Elt Ideal)) (r : Fin 100000) (q : Fin 128) :
    val_main_v145 (F := Ideal) P (ix2 r q) = P (ix2 (2 : Fin 3) q) := bias2 P r q

theorem scale2 (P : (⟨S3x128, .f32⟩ : BufTy).Contents (Elt Ideal)) (r : Fin 100000) (q : Fin 128) :
    val_main_v148 (F := Ideal) P (ix2 r q) = P (ix2 (2 : Fin 3) q) := bias2 P r q

theorem shift2 (P : (⟨S3x128, .f32⟩ : BufTy).Contents (Elt Ideal)) (r : Fin 100000) (q : Fin 128) :
    val_main_v161 (F := Ideal) P (ix2 r q) = P (ix2 (2 : Fin 3) q) := bias2 P r q

/-- The inverse deviation is taken on the row of 128 variances and then broadcast down the rows: entry (r, q) is
    rsqrt(σ²(2, q) + ε). -/
theorem invDev2 (P : (⟨S3x128, .f32⟩ : BufTy).Contents (Elt Ideal)) (r : Fin 100000) (q : Fin 128) :
    val_main_v156 (F := Ideal) P (ix2 r q) = Ideal.rsqrt (P (ix2 (2 : Fin 3) q) + Cert.GcnBn.epsWord) := by
  rw [val_main_v156_apply, val_main_v155_apply, val_main_v154_apply, val_main_v153_apply, val_main_v152_apply,
    val_main_v151_apply, val_main_v150_apply, val_main_cst_16_apply]
  have e : idx_main_v150 (idx_main_v151 (idx_main_v155 (idx_main_v156 (ix2 r q)))) = ix2 (2 : Fin 3) q := by
    funext a
    refine Fin.ext ?_
    match a with
    | ⟨0, _⟩ => rfl
    | ⟨1, _⟩ => exact Nat.mod_eq_of_lt q.isLt
  rw [e]
  rfl

/-- The zero splat the positive part compares with. -/
theorem zero2 (i : S100000x128.Idx) : val_main_call2_v0 (F := Ideal) i = Cert.Dense.zeroWord := by
  rw [val_main_call2_v0_apply, val_main_call2_cst_apply]
  rfl

/-- The scatter of the layer is the aggregation of the product of the layer's input by its weight matrix. -/
theorem agg2 (x0 : (⟨S100000x128, .f32⟩ : BufTy).Contents (Elt Ideal)) (x1 : (⟨S2x1600000, .i32⟩ : BufTy).Contents (Elt Ideal))
    (x3 : (⟨S3x128x128, .f32⟩ : BufTy).Contents (Elt Ideal)) (x4 x5 x6 x7 x8 : (⟨S3x128, .f32⟩ : BufTy).Contents (Elt Ideal)) :
    val_main_v134 (F := Ideal) x0 x1 x3 x4 x5 x6 x7 x8
      = aggR x1 (Cert.Dense.matProd (val_main_v118 (F := Ideal) x0 x1 x3 x4 x5 x6 x7 x8) (Cert.GcnBn.weight x3 2)) := by
  unfold val_main_v134 val_main_v131 val_main_v128 val_main_v121
  rw [weight2 x3, Cert.Dense.dotGeneral_eq_matProd dot_S100000x128_S128x128_S100000x128_1_0_0_1_n_n rfl]
  rfl

/-- The third layer of the reference is the specification's layer 2. -/
theorem layer2 (x0 : (⟨S100000x128, .f32⟩ : BufTy).Contents (Elt Ideal)) (x1 : (⟨S2x1600000, .i32⟩ : BufTy).Contents (Elt Ideal))
    (x3 : (⟨S3x128x128, .f32⟩ : BufTy).Contents (Elt Ideal)) (x4 x5 x6 x7 x8 : (⟨S3x128, .f32⟩ : BufTy).Contents (Elt Ideal)) :
    val_main_v163 (F := Ideal) x0 x1 x3 x4 x5 x6 x7 x8
      = Cert.GcnBn.layer (aggR x1) 2 (val_main_v118 (F := Ideal) x0 x1 x3 x4 x5 x6 x7 x8) x3 x4 x5 x6 x7 x8 := by
  funext i
  obtain ⟨r, q, rfl⟩ : ∃ (r : Fin 100000) (q : Fin 128), i = ix2 r q := ⟨i 0, i 1, eq_ix2 i⟩
  unfold Cert.GcnBn.layer
  rw [Cert.GcnBn.bnRelu_apply, val_main_v163_apply, val_main_v162_apply, val_main_v157_apply, val_main_v149_apply,
    val_main_v146_apply, val_main_v139_apply, agg2, bias2 x4 r q, mean2 x7 r q, scale2 x5 r q, shift2 x6 r q, invDev2 x8 r q, zero2]
  rfl

/-- The reference's result is the network: three layers, each fed the one before, with bias x4, scale x5, shift x6,
    running mean x7 and running variance x8. -/
theorem net_eq (x0 : (⟨S100000x128, .f32⟩ : BufTy).Contents (Elt Ideal)) (x1 : (⟨S2x1600000, .i32⟩ : BufTy).Contents (Elt Ideal))
    (x3 : (⟨S3x128x128, .f32⟩ : BufTy).Contents (Elt Ideal)) (x4 x5 x6 x7 x8 : (⟨S3x128, .f32⟩ : BufTy).Contents (Elt Ideal)) :
    val_main_v163 (F := Ideal) x0 x1 x3 x4 x5 x6 x7 x8 = Cert.GcnBn.net (aggR x1) x0 x3 x4 x5 x6 x7 x8 := by
  unfold Cert.GcnBn.net
  rw [layer2, layer1, layer0]

end Cert.ReferenceIdeal.RefValue

end
-- ==== Proof.KCarry.lean ====
/-
  Buffers the regions and the host stretches pass along unchanged.

  The three arrays derived from the edge list — source indices, destination indices, edge coefficients — are computed
  once, in the first host stretch, and read again by every layer's aggregation. The parameter arrays are arguments and
  every layer cuts its rows from them. No region has any of these as one of its arrays and no later stretch writes
  them, so at each later boundary where they are read they still hold what the first stretch, or the launch, left.
  A buffer crosses a region by not being one of the region's arrays, and a stretch by being written by none of its
  operations.
-/
import proofs.«164004_j66537633349984_1_alg».proof.Proof.Gen.KernelIdeal.Frame

set_option maxRecDepth 16384

noncomputable section

namespace Cert.KernelIdeal.KCarry

open Cert.KernelIdeal Cert.KernelIdeal.Gen
open Idealize.ShloMosaic Idealize.ShloMosaic.TcCoe Idealize.ShloMosaic.Tactic
open Idealize.SL Idealize.SL.Sem
open Idealize.ShloMosaic.StableHlo
open Idealize.ShloMosaic.Pipeline (Dat Cfg Window)

variable {F : FTy → Type} [FloatOps F]
variable (m : (ℓ : Loc nD τ sig) → Buf (Elt F) ℓ) (ρ : Dev nD → PrngReg)

/-- The buffers every layer reads again: the edge list's three derived arrays and the parameter arguments. -/
abbrev carried : List (Ref sig .tc) :=
  [main_v3, main_v6, main_v28, main_arg3, main_arg4, main_arg5, main_arg6, main_arg7, main_arg8]

/-! ## Across a region: none of them is an array of any of the first five regions -/

theorem reg0 (c : Dev nD) {b : Ref sig .tc} (hb : b ∈ carried) : W2 m ρ c (Proc.devRef .tc b) = W1 m ρ c (Proc.devRef .tc b) :=
  W2_of_ne m ρ c b ((by decide : ∀ b ∈ carried, ∀ w, Pipeline.arrRef spec0 w ≠ b) b hb)
theorem reg1 (c : Dev nD) {b : Ref sig .tc} (hb : b ∈ carried) : W4 m ρ c (Proc.devRef .tc b) = W3 m ρ c (Proc.devRef .tc b) :=
  W4_of_ne m ρ c b ((by decide : ∀ b ∈ carried, ∀ w, Pipeline.arrRef spec1 w ≠ b) b hb)
theorem reg2 (c : Dev nD) {b : Ref sig .tc} (hb : b ∈ carried) : W6 m ρ c (Proc.devRef .tc b) = W5 m ρ c (Proc.devRef .tc b) :=
  W6_of_ne m ρ c b ((by decide : ∀ b ∈ carried, ∀ w, Pipeline.arrRef spec2 w ≠ b) b hb)
theorem reg3 (c : Dev nD) {b : Ref sig .tc} (hb : b ∈ carried) : W8 m ρ c (Proc.devRef .tc b) = W7 m ρ c (Proc.devRef .tc b) :=
  W8_of_ne m ρ c b ((by decide : ∀ b ∈ carried, ∀ w, Pipeline.arrRef spec3 w ≠ b) b hb)
theorem reg4 (c : Dev nD) {b : Ref sig .tc} (hb : b ∈ carried) : W10 m ρ c (Proc.devRef .tc b) = W9 m ρ c (Proc.devRef .tc b) :=
  W10_of_ne m ρ c b ((by decide : ∀ b ∈ carried, ∀ w, Pipeline.arrRef spec4 w ≠ b) b hb)

/-! ## Across a stretch: none of its operations writes any of them -/

theorem host1 (c : Dev nD) {b : Ref sig .tc} (hb : b ∈ carried) : W3 m ρ c (Proc.devRef .tc b) = W2 m ρ c (Proc.devRef .tc b) := by
  show StableHlo.after hostOps1 (W2 m ρ c) (Proc.devRef .tc b) = _
  simp only [carried, List.mem_cons, List.mem_singleton, List.not_mem_nil, or_false] at hb
  rcases hb with rfl | rfl | rfl | rfl | rfl | rfl | rfl | rfl | rfl <;> after_results_simp
theorem host2 (c : Dev nD) {b : Ref sig .tc} (hb : b ∈ carried) : W5 m ρ c (Proc.devRef .tc b) = W4 m ρ c (Proc.devRef .tc b) := by
  show StableHlo.after hostOps2 (W4 m ρ c) (Proc.devRef .tc b) = _
  simp only [carried, List.mem_cons, List.mem_singleton, List.not_mem_nil, or_false] at hb
  rcases hb with rfl | rfl | rfl | rfl | rfl | rfl | rfl | rfl | rfl <;> after_results_simp
theorem host3 (c : Dev nD) {b : Ref sig .tc} (hb : b ∈ carried) : W7 m ρ c (Proc.devRef .tc b) = W6 m ρ c (Proc.devRef .tc b) := by
  show StableHlo.after hostOps3 (W6 m ρ c) (Proc.devRef .tc b) = _
  simp only [carried, List.mem_cons, List.mem_singleton, List.not_mem_nil, or_false] at hb
  rcases hb with rfl | rfl | rfl | rfl | rfl | rfl | rfl | rfl | rfl <;> after_results_simp
theorem host4 (c : Dev nD) {b : Ref sig .tc} (hb : b ∈ carried) : W9 m ρ c (Proc.devRef .tc b) = W8 m ρ c (Proc.devRef .tc b) := by
  show StableHlo.after hostOps4 (W8 m ρ c) (Proc.devRef .tc b) = _
  simp only [carried, List.mem_cons, List.mem_singleton, List.not_mem_nil, or_false] at hb
  rcases hb with rfl | rfl | rfl | rfl | rfl | rfl | rfl | rfl | rfl <;> after_results_simp

/-! ## The boundaries where they are read -/

/-- At the first layer's aggregation. -/
theorem at2 (c : Dev nD) {b : Ref sig .tc} (hb : b ∈ carried) : W2 m ρ c (Proc.devRef .tc b) = W1 m ρ c (Proc.devRef .tc b) :=
  reg0 m ρ c hb
/-- Where the second layer's weights are cut. -/
theorem at4 (c : Dev nD) {b : Ref sig .tc} (hb : b ∈ carried) : W4 m ρ c (Proc.devRef .tc b) = W1 m ρ c (Proc.devRef .tc b) :=
  (reg1 m ρ c hb).trans <| (host1 m ρ c hb).trans (at2 m ρ c hb)
/-- At the second layer's aggregation. -/
theorem at6 (c : Dev nD) {b : Ref sig .tc} (hb : b ∈ carried) : W6 m ρ c (Proc.devRef .tc b) = W1 m ρ c (Proc.devRef .tc b) :=
  (reg2 m ρ c hb).trans <| (host2 m ρ c hb).trans (at4 m ρ c hb)
/-- Where the third layer's weights are cut. -/
theorem at8 (c : Dev nD) {b : Ref sig .tc} (hb : b ∈ carried) : W8 m ρ c (Proc.devRef .tc b) = W1 m ρ c (Proc.devRef .tc b) :=
  (reg3 m ρ c hb).trans <| (host3 m ρ c hb).trans (at6 m ρ c hb)
/-- At the third layer's aggregation. -/
theorem at10 (c : Dev nD) {b : Ref sig .tc} (hb : b ∈ carried) : W10 m ρ c (Proc.devRef .tc b) = W1 m ρ c (Proc.devRef .tc b) :=
  (reg4 m ρ c hb).trans <| (host4 m ρ c hb).trans (at8 m ρ c hb)

/-! ## The arguments after the first stretch: the launch contents -/

/-- The first stretch writes none of the float arguments. -/
theorem arg_at1 (c : Dev nD) {b : Ref sig .tc}
    (hb : b ∈ ([main_arg0, main_arg3, main_arg4, main_arg5, main_arg6, main_arg7, main_arg8] : List (Ref sig .tc))) :
    W1 m ρ c (Proc.devRef .tc b) = m ((c : Thread nD τ).loc b) := by
  show StableHlo.after hostOps0 (W0 m ρ c) (Proc.devRef .tc b) = W0 m ρ c (Proc.devRef .tc b)
  simp only [List.mem_cons, List.mem_singleton, List.not_mem_nil, or_false] at hb
  rcases hb with rfl | rfl | rfl | rfl | rfl | rfl | rfl <;> after_results_simp

/-! ## A layer's output across the short stretch that cuts the next layer's weights -/

theorem out1_at5 (c : Dev nD) : W5 m ρ c (Proc.devRef .tc main_v60) = W4 m ρ c (Proc.devRef .tc main_v60) := by
  show StableHlo.after hostOps2 (W4 m ρ c) (Proc.devRef .tc main_v60) = _; after_results_simp
theorem out3_at9 (c : Dev nD) : W9 m ρ c (Proc.devRef .tc main_v92) = W8 m ρ c (Proc.devRef .tc main_v92) := by
  show StableHlo.after hostOps4 (W8 m ρ c) (Proc.devRef .tc main_v92) = _; after_results_simp

end Cert.KernelIdeal.KCarry

end
-- ==== Proof.KHost0.lean ====
/-
  What the first host stretch leaves: the edge list's derived arrays and the first layer's weights.

  Before the first region the host code appends a self loop per node to the source and destination rows of the edge
  array, counts the destinations, and forms each edge's coefficient; it also cuts the first layer's 128 × 128 matrix
  out of the stacked weights. The reference program begins with the same operations on the same arguments, so each
  of these buffers holds the reference's corresponding stage of the launch contents: the two terms are the same
  composition of the same operations.
-/
import Idealize.ShloMosaic.PureOps.Ideal
import proofs.«164004_j66537633349984_1_alg».proof.Proof.Gen.KernelIdeal.Frame
import proofs.«164004_j66537633349984_1_alg».proof.Proof.Gen.ReferenceIdeal.Read
import proofs.«164004_j66537633349984_1_alg».proof.Proof.RWeights
import proofs.«164004_j66537633349984_1_alg».proof.Proof.KCarry

set_option maxRecDepth 16384

noncomputable section

namespace Cert.KernelIdeal.KHost

open Cert.KernelIdeal Cert.KernelIdeal.Gen
open Idealize.ShloMosaic Idealize.ShloMosaic.TcCoe Idealize.ShloMosaic.Tactic
open Idealize.SL Idealize.SL.Sem
open Idealize.ShloMosaic.StableHlo
open Idealize.ShloMosaic.Pipeline (Dat Cfg Window)

variable (m : (ℓ : Loc nD τ sig) → Buf (Elt Ideal) ℓ) (ρ : Dev nD → PrngReg)

set_option maxHeartbeats 1000000 in
/-- The source indices with the self loops appended. -/
theorem src1 (c : Dev nD) : W1 m ρ c (Proc.devRef .tc main_v3)
    = Cert.ReferenceIdeal.Read.val_main_v3 (F := Ideal) (m ((c : Thread nD τ).loc main_arg1)) := by
  show StableHlo.after hostOps0 (W0 m ρ c) (Proc.devRef .tc main_v3) = _
  after_results_simp
  rfl

set_option maxHeartbeats 1000000 in
/-- The destination indices with the self loops appended. -/
theorem dst1 (c : Dev nD) : W1 m ρ c (Proc.devRef .tc main_v6)
    = Cert.ReferenceIdeal.Read.val_main_v6 (F := Ideal) (m ((c : Thread nD τ).loc main_arg1)) := by
  show StableHlo.after hostOps0 (W0 m ρ c) (Proc.devRef .tc main_v6) = _
  after_results_simp
  rfl

set_option maxHeartbeats 1000000 in
/-- The edge coefficients: the product of the two endpoints' inverse root degrees. -/
theorem coef1 (c : Dev nD) : W1 m ρ c (Proc.devRef .tc main_v28)
    = Cert.ReferenceIdeal.Read.val_main_v28 (F := Ideal) (m ((c : Thread nD τ).loc main_arg1)) := by
  show StableHlo.after hostOps0 (W0 m ρ c) (Proc.devRef .tc main_v28) = _
  after_results_simp
  rfl

set_option maxHeartbeats 1000000 in
/-- The first layer's weight matrix. -/
theorem weights1 (c : Dev nD) : W1 m ρ c (Proc.devRef .tc main_v30)
    = Cert.GcnBn.weight (m ((c : Thread nD τ).loc main_arg3)) 0 := by
  refine Eq.trans ?_ (Cert.ReferenceIdeal.RefValue.weight0 (m ((c : Thread nD τ).loc main_arg3)))
  show StableHlo.after hostOps0 (W0 m ρ c) (Proc.devRef .tc main_v30) = _
  after_results_simp
  rfl

set_option maxHeartbeats 1000000 in
/-- The second layer's weight matrix, cut after the first layer has run. -/
theorem weights5 (c : Dev nD) : W5 m ρ c (Proc.devRef .tc main_v62)
    = Cert.GcnBn.weight (m ((c : Thread nD τ).loc main_arg3)) 1 := by
  refine Eq.trans ?_ (Cert.ReferenceIdeal.RefValue.weight1 (m ((c : Thread nD τ).loc main_arg3)))
  show StableHlo.after hostOps2 (W4 m ρ c) (Proc.devRef .tc main_v62) = _
  after_results_simp
  rw [KCarry.at4 m ρ c (b := main_arg3) (by decide), KCarry.arg_at1 m ρ c (b := main_arg3) (by decide)]
  rfl

set_option maxHeartbeats 1000000 in
/-- The third layer's weight matrix, cut after the second layer has run. -/
theorem weights9 (c : Dev nD) : W9 m ρ c (Proc.devRef .tc main_v94)
    = Cert.GcnBn.weight (m ((c : Thread nD τ).loc main_arg3)) 2 := by
  refine Eq.trans ?_ (Cert.ReferenceIdeal.RefValue.weight2 (m ((c : Thread nD τ).loc main_arg3)))
  show StableHlo.after hostOps4 (W8 m ρ c) (Proc.devRef .tc main_v94) = _
  after_results_simp
  rw [KCarry.at8 m ρ c (b := main_arg3) (by decide), KCarry.arg_at1 m ρ c (b := main_arg3) (by decide)]
  rfl

end Cert.KernelIdeal.KHost

end
-- ==== Proof.KRows.lean ====
/-
  A layer's parameter row as the kernel's host code cuts it.

  Each parameter family is a 3 × 128 array, one row per layer. The kernel's host code takes row l as a 1 × 128 slice,
  flattens it to 128 entries and lays those out again as a one-row matrix for the normalising region. Entry (0, q) of
  the result is entry (l, q) of the family: a slice reads at the offset row, and the two re-layouts keep the row-major
  position q.
-/
import Idealize.ShloMosaic.PureOps.Ideal
import Idealize.ShloMosaic.Lib.Pipeline.Value
import Idealize.ShloMosaic.Lib.ValueIdx
import proofs.«164004_j66537633349984_1_alg».proof.Proof.Gen.KernelIdeal
import proofs.«164004_j66537633349984_1_alg».proof.Proof.Spec

noncomputable section

namespace Cert.KernelIdeal.KRows

open Cert.KernelIdeal Cert.KernelIdeal.Facts₀ Idealize.ShloMosaic Idealize.ShloMosaic.ValueIdx

/-- Flattening a one-row matrix and laying it out again as one row leaves entry (0, q) where it was. -/
theorem relaid_apply (y : (⟨S1x128, .f32⟩ : BufTy).Contents (Elt Ideal)) (q : Fin 128) :
    shapeCast S1x128 (shapeCast S128 y shapeCasts_S1x128_S128) shapeCasts_S128_S1x128 (ix2 (0 : Fin 1) q) = y (ix2 (0 : Fin 1) q) := by
  rw [shapeCast_apply (shapeCast S128 y shapeCasts_S1x128_S128) shapeCasts_S128_S1x128 (ix2 (0 : Fin 1) q) (ix1 q)
        (by rewrite [Shape.rowMajor_val_two, Shape.rowMajor_val_one]; show q.val = 0 * 128 + q.val; omega),
      shapeCast_apply y shapeCasts_S1x128_S128 (ix1 q) (ix2 (0 : Fin 1) q)
        (by rewrite [Shape.rowMajor_val_two, Shape.rowMajor_val_one]; show 0 * 128 + q.val = q.val; omega)]

/-- Layer 0's row of a parameter family, cut and re-laid, read as a vector. -/
theorem row0 (x : (⟨S3x128, .f32⟩ : BufTy).Contents (Elt Ideal)) :
    Cert.GcnBn.rowv (shapeCast S1x128 (shapeCast S128 (extractStridedSlice S1x128 ![0, 0] x slices_S3x128_S1x128_0_0) shapeCasts_S1x128_S128) shapeCasts_S128_S1x128)
      = Cert.GcnBn.prow x 0 := by
  funext q
  show shapeCast S1x128 _ shapeCasts_S128_S1x128 (ix2 (0 : Fin 1) q) = x (ix2 (0 : Fin 3) q)
  rw [relaid_apply]
  exact extractStridedSlice_apply ![0, 0] x slices_S3x128_S1x128_0_0 (ix2 (0 : Fin 1) q) (ix2 (0 : Fin 3) q) (fun a => match a with
    | ⟨0, _⟩ => by show 0 = 0 + 0; rfl
    | ⟨1, _⟩ => by show q.val = 0 + q.val; omega)

/-- Layer 1's row. -/
theorem row1 (x : (⟨S3x128, .f32⟩ : BufTy).Contents (Elt Ideal)) :
    Cert.GcnBn.rowv (shapeCast S1x128 (shapeCast S128 (extractStridedSlice S1x128 ![1, 0] x slices_S3x128_S1x128_1_0) shapeCasts_S1x128_S128) shapeCasts_S128_S1x128)
      = Cert.GcnBn.prow x 1 := by
  funext q
  show shapeCast S1x128 _ shapeCasts_S128_S1x128 (ix2 (0 : Fin 1) q) = x (ix2 (1 : Fin 3) q)
  rw [relaid_apply]
  exact extractStridedSlice_apply ![1, 0] x slices_S3x128_S1x128_1_0 (ix2 (0 : Fin 1) q) (ix2 (1 : Fin 3) q) (fun a => match a with
    | ⟨0, _⟩ => by show 1 = 1 + 0; rfl
    | ⟨1, _⟩ => by show q.val = 0 + q.val; omega)

/-- Layer 2's row. -/
theorem row2 (x : (⟨S3x128, .f32⟩ : BufTy).Contents (Elt Ideal)) :
    Cert.GcnBn.rowv (shapeCast S1x128 (shapeCast S128 (extractStridedSlice S1x128 ![2, 0] x slices_S3x128_S1x128_2_0) shapeCasts_S1x128_S128) shapeCasts_S128_S1x128)
      = Cert.GcnBn.prow x 2 := by
  funext q
  show shapeCast S1x128 _ shapeCasts_S128_S1x128 (ix2 (0 : Fin 1) q) = x (ix2 (2 : Fin 3) q)
  rw [relaid_apply]
  exact extractStridedSlice_apply ![2, 0] x slices_S3x128_S1x128_2_0 (ix2 (0 : Fin 1) q) (ix2 (2 : Fin 3) q) (fun a => match a with
    | ⟨0, _⟩ => by show 2 = 2 + 0; rfl
    | ⟨1, _⟩ => by show q.val = 0 + q.val; omega)

end Cert.KernelIdeal.KRows

end
-- ==== Proof.KHost1.lean ====
/-
  What the first layer's host stretch hands the normalising region.

  Between the first product and the first normalisation the host code aggregates the product over the edges — the
  same gather, scaling and scatter-add the reference applies, on the edge arrays the first stretch left — and cuts
  layer 0's row out of each of the five parameter families. So the region's main input is the reference's aggregation
  of the product, and each one-row input, read as a vector, is layer 0's row of its family.
-/
import Idealize.ShloMosaic.PureOps.Ideal
import proofs.«164004_j66537633349984_1_alg».proof.Proof.Gen.KernelIdeal.Frame
import proofs.«164004_j66537633349984_1_alg».proof.Proof.RAgg
import proofs.«164004_j66537633349984_1_alg».proof.Proof.KCarry
import proofs.«164004_j66537633349984_1_alg».proof.Proof.KRows
import proofs.«164004_j66537633349984_1_alg».proof.Proof.KHost0

set_option maxRecDepth 16384

noncomputable section

namespace Cert.KernelIdeal.KHost

open Cert.KernelIdeal Cert.KernelIdeal.Gen
open Idealize.ShloMosaic Idealize.ShloMosaic.TcCoe Idealize.ShloMosaic.Tactic
open Idealize.SL Idealize.SL.Sem
open Idealize.ShloMosaic.StableHlo
open Idealize.ShloMosaic.Pipeline (Dat Cfg Window)

variable (m : (ℓ : Loc nD τ sig) → Buf (Elt Ideal) ℓ) (ρ : Dev nD → PrngReg)

set_option maxHeartbeats 1000000 in
/-- The aggregation of the first product over the edges. -/
theorem agg3 (c : Dev nD) : W3 m ρ c (Proc.devRef .tc main_v44)
    = Cert.ReferenceIdeal.RefValue.aggR (m ((c : Thread nD τ).loc main_arg1)) (W2 m ρ c (Proc.devRef .tc main_v31)) := by
  show StableHlo.after hostOps1 (W2 m ρ c) (Proc.devRef .tc main_v44) = _
  after_results_simp
  rw [KCarry.at2 m ρ c (b := main_v3) (by decide), KCarry.at2 m ρ c (b := main_v6) (by decide),
    KCarry.at2 m ρ c (b := main_v28) (by decide), src1 m ρ c, dst1 m ρ c, coef1 m ρ c]
  rfl

set_option maxHeartbeats 1000000 in
/-- The bias row. -/
theorem bias3 (c : Dev nD) : Cert.GcnBn.rowv (W3 m ρ c (Proc.devRef .tc main_v47))
    = Cert.GcnBn.prow (m ((c : Thread nD τ).loc main_arg4)) 0 := by
  show Cert.GcnBn.rowv (StableHlo.after hostOps1 (W2 m ρ c) (Proc.devRef .tc main_v47)) = _
  after_results_simp
  rw [KCarry.at2 m ρ c (b := main_arg4) (by decide), KCarry.arg_at1 m ρ c (b := main_arg4) (by decide)]
  exact KRows.row0 _

set_option maxHeartbeats 1000000 in
/-- The scale row. -/
theorem scale3 (c : Dev nD) : Cert.GcnBn.rowv (W3 m ρ c (Proc.devRef .tc main_v50))
    = Cert.GcnBn.prow (m ((c : Thread nD τ).loc main_arg5)) 0 := by
  show Cert.GcnBn.rowv (StableHlo.after hostOps1 (W2 m ρ c) (Proc.devRef .tc main_v50)) = _
  after_results_simp
  rw [KCarry.at2 m ρ c (b := main_arg5) (by decide), KCarry.arg_at1 m ρ c (b := main_arg5) (by decide)]
  exact KRows.row0 _

set_option maxHeartbeats 1000000 in
/-- The shift row. -/
theorem shift3 (c : Dev nD) : Cert.GcnBn.rowv (W3 m ρ c (Proc.devRef .tc main_v53))
    = Cert.GcnBn.prow (m ((c : Thread nD τ).loc main_arg6)) 0 := by
  show Cert.GcnBn.rowv (StableHlo.after hostOps1 (W2 m ρ c) (Proc.devRef .tc main_v53)) = _
  after_results_simp
  rw [KCarry.at2 m ρ c (b := main_arg6) (by decide), KCarry.arg_at1 m ρ c (b := main_arg6) (by decide)]
  exact KRows.row0 _

set_option maxHeartbeats 1000000 in
/-- The running-mean row. -/
theorem mean3 (c : Dev nD) : Cert.GcnBn.rowv (W3 m ρ c (Proc.devRef .tc main_v56))
    = Cert.GcnBn.prow (m ((c : Thread nD τ).loc main_arg7)) 0 := by
  show Cert.GcnBn.rowv (StableHlo.after hostOps1 (W2 m ρ c) (Proc.devRef .tc main_v56)) = _
  after_results_simp
  rw [KCarry.at2 m ρ c (b := main_arg7) (by decide), KCarry.arg_at1 m ρ c (b := main_arg7) (by decide)]
  exact KRows.row0 _

set_option maxHeartbeats 1000000 in
/-- The running-variance row. -/
theorem var3 (c : Dev nD) : Cert.GcnBn.rowv (W3 m ρ c (Proc.devRef .tc main_v59))
    = Cert.GcnBn.prow (m ((c : Thread nD τ).loc main_arg8)) 0 := by
  show Cert.GcnBn.rowv (StableHlo.after hostOps1 (W2 m ρ c) (Proc.devRef .tc main_v59)) = _
  after_results_simp
  rw [KCarry.at2 m ρ c (b := main_arg8) (by decide), KCarry.arg_at1 m ρ c (b := main_arg8) (by decide)]
  exact KRows.row0 _

end Cert.KernelIdeal.KHost

end
-- ==== Proof.KHost3.lean ====
/-
  What the second layer's host stretch hands the normalising region.

  As in the first layer: the host code aggregates the second product over the edges — on the edge arrays the first
  stretch left, unchanged since — and cuts layer 1's row out of each of the five parameter families. The region's main
  input is the reference's aggregation of the product; each one-row input, read as a vector, is layer 1's row.
-/
import Idealize.ShloMosaic.PureOps.Ideal
import proofs.«164004_j66537633349984_1_alg».proof.Proof.Gen.KernelIdeal.Frame
import proofs.«164004_j66537633349984_1_alg».proof.Proof.RAgg
import proofs.«164004_j66537633349984_1_alg».proof.Proof.KCarry
import proofs.«164004_j66537633349984_1_alg».proof.Proof.KRows
import proofs.«164004_j66537633349984_1_alg».proof.Proof.KHost0

set_option maxRecDepth 16384

noncomputable section

namespace Cert.KernelIdeal.KHost

open Cert.KernelIdeal Cert.KernelIdeal.Gen
open Idealize.ShloMosaic Idealize.ShloMosaic.TcCoe Idealize.ShloMosaic.Tactic
open Idealize.SL Idealize.SL.Sem
open Idealize.ShloMosaic.StableHlo
open Idealize.ShloMosaic.Pipeline (Dat Cfg Window)

variable (m : (ℓ : Loc nD τ sig) → Buf (Elt Ideal) ℓ) (ρ : Dev nD → PrngReg)

set_option maxHeartbeats 1000000 in
/-- The aggregation of the second product over the edges. -/
theorem agg7 (c : Dev nD) : W7 m ρ c (Proc.devRef .tc main_v76)
    = Cert.ReferenceIdeal.RefValue.aggR (m ((c : Thread nD τ).loc main_arg1)) (W6 m ρ c (Proc.devRef .tc main_v63)) := by
  show StableHlo.after hostOps3 (W6 m ρ c) (Proc.devRef .tc main_v76) = _
  after_results_simp
  rw [KCarry.at6 m ρ c (b := main_v3) (by decide), KCarry.at6 m ρ c (b := main_v6) (by decide),
    KCarry.at6 m ρ c (b := main_v28) (by decide), src1 m ρ c, dst1 m ρ c, coef1 m ρ c]
  rfl

set_option maxHeartbeats 1000000 in
/-- The bias row. -/
theorem bias7 (c : Dev nD) : Cert.GcnBn.rowv (W7 m ρ c (Proc.devRef .tc main_v79))
    = Cert.GcnBn.prow (m ((c : Thread nD τ).loc main_arg4)) 1 := by
  show Cert.GcnBn.rowv (StableHlo.after hostOps3 (W6 m ρ c) (Proc.devRef .tc main_v79)) = _
  after_results_simp
  rw [KCarry.at6 m ρ c (b := main_arg4) (by decide), KCarry.arg_at1 m ρ c (b := main_arg4) (by decide)]
  exact KRows.row1 _

set_option maxHeartbeats 1000000 in
/-- The scale row. -/
theorem scale7 (c : Dev nD) : Cert.GcnBn.rowv (W7 m ρ c (Proc.devRef .tc main_v82))
    = Cert.GcnBn.prow (m ((c : Thread nD τ).loc main_arg5)) 1 := by
  show Cert.GcnBn.rowv (StableHlo.after hostOps3 (W6 m ρ c) (Proc.devRef .tc main_v82)) = _
  after_results_simp
  rw [KCarry.at6 m ρ c (b := main_arg5) (by decide), KCarry.arg_at1 m ρ c (b := main_arg5) (by decide)]
  exact KRows.row1 _

set_option maxHeartbeats 1000000 in
/-- The shift row. -/
theorem shift7 (c : Dev nD) : Cert.GcnBn.rowv (W7 m ρ c (Proc.devRef .tc main_v85))
    = Cert.GcnBn.prow (m ((c : Thread nD τ).loc main_arg6)) 1 := by
  show Cert.GcnBn.rowv (StableHlo.after hostOps3 (W6 m ρ c) (Proc.devRef .tc main_v85)) = _
  after_results_simp
  rw [KCarry.at6 m ρ c (b := main_arg6) (by decide), KCarry.arg_at1 m ρ c (b := main_arg6) (by decide)]
  exact KRows.row1 _

set_option maxHeartbeats 1000000 in
/-- The running-mean row. -/
theorem mean7 (c : Dev nD) : Cert.GcnBn.rowv (W7 m ρ c (Proc.devRef .tc main_v88))
    = Cert.GcnBn.prow (m ((c : Thread nD τ).loc main_arg7)) 1 := by
  show Cert.GcnBn.rowv (StableHlo.after hostOps3 (W6 m ρ c) (Proc.devRef .tc main_v88)) = _
  after_results_simp
  rw [KCarry.at6 m ρ c (b := main_arg7) (by decide), KCarry.arg_at1 m ρ c (b := main_arg7) (by decide)]
  exact KRows.row1 _

set_option maxHeartbeats 1000000 in
/-- The running-variance row. -/
theorem var7 (c : Dev nD) : Cert.GcnBn.rowv (W7 m ρ c (Proc.devRef .tc main_v91))
    = Cert.GcnBn.prow (m ((c : Thread nD τ).loc main_arg8)) 1 := by
  show Cert.GcnBn.rowv (StableHlo.after hostOps3 (W6 m ρ c) (Proc.devRef .tc main_v91)) = _
  after_results_simp
  rw [KCarry.at6 m ρ c (b := main_arg8) (by decide), KCarry.arg_at1 m ρ c (b := main_arg8) (by decide)]
  exact KRows.row1 _

end Cert.KernelIdeal.KHost

end
-- ==== Proof.KHost5.lean ====
/-
  What the third layer's host stretch hands the normalising region.

  As in the first two layers: the host code aggregates the third product over the edges — on the edge arrays the first
  stretch left, unchanged since — and cuts layer 2's row out of each of the five parameter families. The region's main
  input is the reference's aggregation of the product; each one-row input, read as a vector, is layer 2's row.
-/
import Idealize.ShloMosaic.PureOps.Ideal
import proofs.«164004_j66537633349984_1_alg».proof.Proof.Gen.KernelIdeal.Frame
import proofs.«164004_j66537633349984_1_alg».proof.Proof.RAgg
import proofs.«164004_j66537633349984_1_alg».proof.Proof.KCarry
import proofs.«164004_j66537633349984_1_alg».proof.Proof.KRows
import proofs.«164004_j66537633349984_1_alg».proof.Proof.KHost0

set_option maxRecDepth 16384

noncomputable section

namespace Cert.KernelIdeal.KHost

open Cert.KernelIdeal Cert.KernelIdeal.Gen
open Idealize.ShloMosaic Idealize.ShloMosaic.TcCoe Idealize.ShloMosaic.Tactic
open Idealize.SL Idealize.SL.Sem
open Idealize.ShloMosaic.StableHlo
open Idealize.ShloMosaic.Pipeline (Dat Cfg Window)

variable (m : (ℓ : Loc nD τ sig) → Buf (Elt Ideal) ℓ) (ρ : Dev nD → PrngReg)

set_option maxHeartbeats 1000000 in
/-- The aggregation of the third product over the edges. -/
theorem agg11 (c : Dev nD) : W11 m ρ c (Proc.devRef .tc main_v108)
    = Cert.ReferenceIdeal.RefValue.aggR (m ((c : Thread nD τ).loc main_arg1)) (W10 m ρ c (Proc.devRef .tc main_v95)) := by
  show StableHlo.after hostOps5 (W10 m ρ c) (Proc.devRef .tc main_v108) = _
  after_results_simp
  rw [KCarry.at10 m ρ c (b := main_v3) (by decide), KCarry.at10 m ρ c (b := main_v6) (by decide),
    KCarry.at10 m ρ c (b := main_v28) (by decide), src1 m ρ c, dst1 m ρ c, coef1 m ρ c]
  rfl

set_option maxHeartbeats 1000000 in
/-- The bias row. -/
theorem bias11 (c : Dev nD) : Cert.GcnBn.rowv (W11 m ρ c (Proc.devRef .tc main_v111))
    = Cert.GcnBn.prow (m ((c : Thread nD τ).loc main_arg4)) 2 := by
  show Cert.GcnBn.rowv (StableHlo.after hostOps5 (W10 m ρ c) (Proc.devRef .tc main_v111)) = _
  after_results_simp
  rw [KCarry.at10 m ρ c (b := main_arg4) (by decide), KCarry.arg_at1 m ρ c (b := main_arg4) (by decide)]
  exact KRows.row2 _

set_option maxHeartbeats 1000000 in
/-- The scale row. -/
theorem scale11 (c : Dev nD) : Cert.GcnBn.rowv (W11 m ρ c (Proc.devRef .tc main_v114))
    = Cert.GcnBn.prow (m ((c : Thread nD τ).loc main_arg5)) 2 := by
  show Cert.GcnBn.rowv (StableHlo.after hostOps5 (W10 m ρ c) (Proc.devRef .tc main_v114)) = _
  after_results_simp
  rw [KCarry.at10 m ρ c (b := main_arg5) (by decide), KCarry.arg_at1 m ρ c (b := main_arg5) (by decide)]
  exact KRows.row2 _

set_option maxHeartbeats 1000000 in
/-- The shift row. -/
theorem shift11 (c : Dev nD) : Cert.GcnBn.rowv (W11 m ρ c (Proc.devRef .tc main_v117))
    = Cert.GcnBn.prow (m ((c : Thread nD τ).loc main_arg6)) 2 := by
  show Cert.GcnBn.rowv (StableHlo.after hostOps5 (W10 m ρ c) (Proc.devRef .tc main_v117)) = _
  after_results_simp
  rw [KCarry.at10 m ρ c (b := main_arg6) (by decide), KCarry.arg_at1 m ρ c (b := main_arg6) (by decide)]
  exact KRows.row2 _

set_option maxHeartbeats 1000000 in
/-- The running-mean row. -/
theorem mean11 (c : Dev nD) : Cert.GcnBn.rowv (W11 m ρ c (Proc.devRef .tc main_v120))
    = Cert.GcnBn.prow (m ((c : Thread nD τ).loc main_arg7)) 2 := by
  show Cert.GcnBn.rowv (StableHlo.after hostOps5 (W10 m ρ c) (Proc.devRef .tc main_v120)) = _
  after_results_simp
  rw [KCarry.at10 m ρ c (b := main_arg7) (by decide), KCarry.arg_at1 m ρ c (b := main_arg7) (by decide)]
  exact KRows.row2 _

set_option maxHeartbeats 1000000 in
/-- The running-variance row. -/
theorem var11 (c : Dev nD) : Cert.GcnBn.rowv (W11 m ρ c (Proc.devRef .tc main_v123))
    = Cert.GcnBn.prow (m ((c : Thread nD τ).loc main_arg8)) 2 := by
  show Cert.GcnBn.rowv (StableHlo.after hostOps5 (W10 m ρ c) (Proc.devRef .tc main_v123)) = _
  after_results_simp
  rw [KCarry.at10 m ρ c (b := main_arg8) (by decide), KCarry.arg_at1 m ρ c (b := main_arg8) (by decide)]
  exact KRows.row2 _

end Cert.KernelIdeal.KHost

end
-- ==== Proof.Mm0.lean ====
/-
  The first layer's dense product, as one whole-array value.

  The region walks the 100000 rows of its left operand in 20 blocks of 5000 rows. At each block it multiplies the block
  by the whole 128 × 128 right operand, accumulating into a zero splat, and writes the 5000 × 128 result back as the same
  block of rows of the output. Narrowing to half precision is the identity on the extended reals and a product
  accumulated into zeros is the plain sum over the contracted coordinate, so each block written is a block of rows of the
  product of the two whole operands: entry (r, q) of a product reads only row r of the left operand, hence the block of
  rows of the product is the product of the block of rows. The 20 blocks cover every row (row r lies in block r / 5000),
  so after the region the output array is the product of the two input arrays as the region found them. No entry needs
  to be finite.
-/
import proofs.«164004_j66537633349984_1_alg».proof.Proof.Gen.KernelIdeal.Frame
import proofs.«164004_j66537633349984_1_alg».proof.Proof.LibDense
import Idealize.ShloMosaic.Lib.Pipeline.Value
import Idealize.ShloMosaic.Lib.ValueIdx
import Idealize.ShloMosaic.Lib.StackMember
import Idealize.ShloMosaic.Lib.KernelVsHost
import Idealize.ShloMosaic.PureOps.Ideal.Laws

set_option maxRecDepth 16384

noncomputable section

namespace Cert.KernelIdeal.Mm

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators
open Facts₀ Facts

/-! ## One block, for any region of this shape -/

/-- The zero offsets of a whole-block access, however they are spelt. -/
theorem zeroOffsets : (![0, 0] : Fin 2 → Nat) = fun _ => 0 := funext fun a => by fin_cases a <;> rfl

/-- A product accumulated into the zero splat, with the plain contraction and operands of any two float formats, is the
    matrix product: the accumulator contributes 0 + s = s and the formats do not matter on the extended reals. -/
theorem matmulZero {M K N : ℕ} {φ₁ φ₂ : FTy} (d : DotDims ⟨2, ![M, K]⟩ ⟨2, ![K, N]⟩ ⟨2, ![M, N]⟩) (hd : d = DotDims.plain M K N)
    (X : FVec Ideal ⟨2, ![M, K]⟩ φ₁) (W : FVec Ideal ⟨2, ![K, N]⟩ φ₂) :
    matmul d none X W (constant ⟨2, ![M, N]⟩ .f32 0x00000000#32) = Cert.Dense.matProd X W := by
  subst hd
  funext i
  obtain ⟨r, c, rfl⟩ : ∃ (r : Fin M) (c : Fin N), i = ix2 r c := ⟨i 0, i 1, eq_ix2 i⟩
  rw [matmul_zero_eq_dotGeneral, StackMember.dotGeneral_plain_apply, Cert.Dense.matProd_apply]

/-- Entry (r, q) of a product reads only row r of the left operand: if X is the block of 5000 rows of A starting at row
    5000·b (entry j of X is the entry of A whose row is 5000·b + the row of j, same column) and Wb is W, then X·Wb is
    that block of rows of A·W. -/
theorem matProd_rowBlock (A : (⟨2, ![100000, 128]⟩ : Shape).Idx → EReal) (W : (⟨2, ![128, 128]⟩ : Shape).Idx → EReal)
    (X : (⟨2, ![5000, 128]⟩ : Shape).Idx → EReal) (Wb : (⟨2, ![128, 128]⟩ : Shape).Idx → EReal) (b : ℕ)
    (hX : ∀ (j : (⟨2, ![5000, 128]⟩ : Shape).Idx) (i : (⟨2, ![100000, 128]⟩ : Shape).Idx),
      (i 0).val = b * 5000 + (j 0).val → (i 1).val = (j 1).val → X j = A i)
    (hW : ∀ j, Wb j = W j)
    (j : (⟨2, ![5000, 128]⟩ : Shape).Idx) (i : (⟨2, ![100000, 128]⟩ : Shape).Idx)
    (h0 : (i 0).val = b * 5000 + (j 0).val) (h1 : (i 1).val = (j 1).val) :
    Cert.Dense.matProd X Wb j = Cert.Dense.matProd A W i := by
  show (∑ k : Fin 128, X (ix2 (j 0) k) * Wb (ix2 k (j 1))) = ∑ k : Fin 128, A (ix2 (i 0) k) * W (ix2 k (i 1))
  have hq : (i 1 : Fin 128) = j 1 := Fin.ext h1
  refine Finset.sum_congr rfl fun k _ => ?_
  rw [hX (ix2 (j 0) k) (ix2 (i 0) k) h0 rfl, hW, hq]

/-! ## The body's payload -/

/-- What the body stores from its two loaded blocks is their matrix product: the narrowings and the shape casts to the
    same shape are the identity. -/
theorem payload0 (x0 : Vec Ideal S5000x128 .f32) (x1 : Vec Ideal S128x128 .f32) :
    Gen.k0_pay1 x0 x1 = Cert.Dense.matProd (M := 5000) (K := 128) (N := 128) x0 x1 := by
  unfold Gen.k0_pay1
  show matmul dot_S5000x128_S128x128_S5000x128_1_0_0_1_n_n none
      (x0 : FVec Ideal S5000x128 .bf16)
      (shapeCast S128x128 x1 shapeCasts_S128x128_S128x128 : FVec Ideal S128x128 .bf16)
      (constant S5000x128 .f32 0x00000000#32) = _
  rw [shapeCast_self]
  exact matmulZero _ rfl _ _

/-! ## The index maps -/

/-- The printed index maps, decided over the grid: at point t the left operand's and the output's block is block t of
    rows (column block 0), the right operand's block is always block (0, 0); and there are 20 points. -/
theorem blockIndices0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0
    ∧ t.val < 20 :=
  (by decide +kernel : ∀ t : Fin grid0.N, _)

/-- Every block of rows is some point's. -/
theorem blockOnto0 : ∀ q0 : Fin 20, ∃ t : Fin cfg0.N, win0_2.index t = ![q0.val, 0] :=
  (by decide +kernel : ∀ q0 : Fin 20, ∃ t : Fin grid0.N, win0_2.index t = ![q0.val, 0])

/-! ## From the blocks to the array -/

section
variable (V : (c : Dev nD) → (b : Ref sig .tc) → Buf (Elt Ideal) ((c : Thread nD τ).loc b))

/-- What point t writes back is block t of the product of the two input arrays as the region finds them. -/
theorem flushed0 (c : Dev nD) (t : Fin cfg0.N) :
    (Gen.dat0 (F := Ideal) V c).flushed 2 t
      = ((cfg0.win 2).blk t).view.read (Elt Ideal)
          (Cert.Dense.matProd (M := 100000) (K := 128) (N := 128) (V c (Pipeline.arrRef spec0 0)) (V c (Pipeline.arrRef spec0 1))) := by
  show (cfg0.win 2).cut (grid0.coords t) ((Gen.dat0 V c).after 2 t) = _
  rw [Gen.after0_2]
  unfold Gen.out0_2
  rw [View.canon_unit_zero zeroOffsets]
  simp only [View.ld_unit_zero (S := S5000x128) zeroOffsets, View.ld_unit_zero (S := S128x128) zeroOffsets]
  rw [payload0]
  obtain ⟨e0, e1, e2, e3, e4, e5, ht⟩ := blockIndices0 t
  funext j
  show Cert.Dense.matProd (Gen.iblk0 V c 0 t) (Gen.iblk0 V c 1 t) j
    = Cert.Dense.matProd (M := 100000) (K := 128) (N := 128) (V c (Pipeline.arrRef spec0 0)) (V c (Pipeline.arrRef spec0 1))
        (((cfg0.win 2).blk t).view.emb j)
  refine matProd_rowBlock (V c (Pipeline.arrRef spec0 0)) (V c (Pipeline.arrRef spec0 1)) (Gen.iblk0 V c 0 t) (Gen.iblk0 V c 1 t)
    t.val ?_ ?_ j (((cfg0.win 2).blk t).view.emb j) ?_ ?_
  · intro y i h0 h1
    show V c (Pipeline.arrRef spec0 0) (((cfg0.win 0).blk t).view.emb y) = V c (Pipeline.arrRef spec0 0) i
    refine congrArg _ ?_
    funext a; apply Fin.ext
    match a with
    | ⟨0, _⟩ => show win0_0.index t (0 : Fin 2) * 5000 + 1 * (y 0).val = (i 0).val; omega
    | ⟨1, _⟩ => show win0_0.index t (1 : Fin 2) * 128 + 1 * (y 1).val = (i 1).val; omega
  · intro y
    show V c (Pipeline.arrRef spec0 1) (((cfg0.win 1).blk t).view.emb y) = V c (Pipeline.arrRef spec0 1) y
    refine congrArg _ ?_
    funext a; apply Fin.ext
    match a with
    | ⟨0, _⟩ => show win0_1.index t (0 : Fin 2) * 128 + 1 * (y 0).val = (y 0).val; omega
    | ⟨1, _⟩ => show win0_1.index t (1 : Fin 2) * 128 + 1 * (y 1).val = (y 1).val; omega
  · show win0_2.index t (0 : Fin 2) * 5000 + 1 * (j 0).val = t.val * 5000 + (j 0).val; omega
  · show win0_2.index t (1 : Fin 2) * 128 + 1 * (j 1).val = (j 1).val; omega

/-- An index of the output array is in point t's block iff each coordinate is in the block's range on its axis. -/
theorem mem_block0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- Every index of the output array is in some point's block: row r is in block r / 5000. -/
theorem covered0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := blockOnto0 ⟨(i 0).val / 5000, by omega⟩
  have q0 : win0_2.index t (0 : Fin 2) = (i 0).val / 5000 := congrFun ht 0
  have q1 : win0_2.index t (1 : Fin 2) = 0 := congrFun ht 1
  refine ⟨t, Gen.flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region's run the output array is the product of the two input arrays as the region found them. -/
theorem arr0 (c : Dev nD) :
    (Gen.dat0 (F := Ideal) V c).arrAt 2 cfg0.N
      = Cert.Dense.matProd (M := 100000) (K := 128) (N := 128) (V c (Pipeline.arrRef spec0 0)) (V c (Pipeline.arrRef spec0 1)) :=
  (Gen.dat0 (F := Ideal) V c).arrAt_eq_of_cover 2 _ (fun t _ => flushed0 V c t) covered0

end

end Cert.KernelIdeal.Mm

end
-- ==== Proof.Mm2.lean ====
/-
  The second layer's dense product, as one whole-array value.

  The region walks the 100000 rows of its left operand in 20 blocks of 5000 rows. At each block it multiplies the block
  by the whole 128 × 128 right operand, accumulating into a zero splat, and writes the 5000 × 128 result back as the same
  block of rows of the output. Narrowing to half precision is the identity on the extended reals and a product
  accumulated into zeros is the plain sum over the contracted coordinate, so each block written is a block of rows of the
  product of the two whole operands: entry (r, q) of a product reads only row r of the left operand, hence the block of
  rows of the product is the product of the block of rows. The 20 blocks cover every row (row r lies in block r / 5000),
  so after the region the output array is the product of the two input arrays as the region found them. No entry needs
  to be finite.
-/
import proofs.«164004_j66537633349984_1_alg».proof.Proof.Gen.KernelIdeal.Frame
import proofs.«164004_j66537633349984_1_alg».proof.Proof.LibDense
import proofs.«164004_j66537633349984_1_alg».proof.Proof.Mm0
import Idealize.ShloMosaic.Lib.Pipeline.Value
import Idealize.ShloMosaic.Lib.ValueIdx
import Idealize.ShloMosaic.Lib.StackMember
import Idealize.ShloMosaic.Lib.KernelVsHost
import Idealize.ShloMosaic.PureOps.Ideal.Laws

set_option maxRecDepth 16384

noncomputable section

namespace Cert.KernelIdeal.Mm

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators
open Facts₀ Facts

/-! ## The body's payload -/

/-- What the body stores from its two loaded blocks is their matrix product: the narrowings and the shape casts to the
    same shape are the identity. -/
theorem payload2 (x0 : Vec Ideal S5000x128 .f32) (x1 : Vec Ideal S128x128 .f32) :
    Gen.k2_pay1 x0 x1 = Cert.Dense.matProd (M := 5000) (K := 128) (N := 128) x0 x1 := by
  unfold Gen.k2_pay1
  show matmul dot_S5000x128_S128x128_S5000x128_1_0_0_1_n_n none
      (shapeCast S5000x128 x0 shapeCasts_S5000x128_S5000x128 : FVec Ideal S5000x128 .bf16)
      (shapeCast S128x128 x1 shapeCasts_S128x128_S128x128 : FVec Ideal S128x128 .bf16)
      (constant S5000x128 .f32 0x00000000#32) = _
  rw [shapeCast_self, shapeCast_self]
  exact matmulZero _ rfl _ _

/-! ## The index maps -/

/-- The printed index maps, decided over the grid: at point t the left operand's and the output's block is block t of
    rows (column block 0), the right operand's block is always block (0, 0); and there are 20 points. -/
theorem blockIndices2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0
    ∧ t.val < 20 :=
  (by decide +kernel : ∀ t : Fin grid2.N, _)

/-- Every block of rows is some point's. -/
theorem blockOnto2 : ∀ q0 : Fin 20, ∃ t : Fin cfg2.N, win2_2.index t = ![q0.val, 0] :=
  (by decide +kernel : ∀ q0 : Fin 20, ∃ t : Fin grid2.N, win2_2.index t = ![q0.val, 0])

/-! ## From the blocks to the array -/

section
variable (V : (c : Dev nD) → (b : Ref sig .tc) → Buf (Elt Ideal) ((c : Thread nD τ).loc b))

/-- What point t writes back is block t of the product of the two input arrays as the region finds them. -/
theorem flushed2 (c : Dev nD) (t : Fin cfg2.N) :
    (Gen.dat2 (F := Ideal) V c).flushed 2 t
      = ((cfg2.win 2).blk t).view.read (Elt Ideal)
          (Cert.Dense.matProd (M := 100000) (K := 128) (N := 128) (V c (Pipeline.arrRef spec2 0)) (V c (Pipeline.arrRef spec2 1))) := by
  show (cfg2.win 2).cut (grid2.coords t) ((Gen.dat2 V c).after 2 t) = _
  rw [Gen.after2_2]
  unfold Gen.out2_2
  rw [View.canon_unit_zero zeroOffsets]
  simp only [View.ld_unit_zero (S := S5000x128) zeroOffsets, View.ld_unit_zero (S := S128x128) zeroOffsets]
  rw [payload2]
  obtain ⟨e0, e1, e2, e3, e4, e5, ht⟩ := blockIndices2 t
  funext j
  show Cert.Dense.matProd (Gen.iblk2 V c 0 t) (Gen.iblk2 V c 1 t) j
    = Cert.Dense.matProd (M := 100000) (K := 128) (N := 128) (V c (Pipeline.arrRef spec2 0)) (V c (Pipeline.arrRef spec2 1))
        (((cfg2.win 2).blk t).view.emb j)
  refine matProd_rowBlock (V c (Pipeline.arrRef spec2 0)) (V c (Pipeline.arrRef spec2 1)) (Gen.iblk2 V c 0 t) (Gen.iblk2 V c 1 t)
    t.val ?_ ?_ j (((cfg2.win 2).blk t).view.emb j) ?_ ?_
  · intro y i h0 h1
    show V c (Pipeline.arrRef spec2 0) (((cfg2.win 0).blk t).view.emb y) = V c (Pipeline.arrRef spec2 0) i
    refine congrArg _ ?_
    funext a; apply Fin.ext
    match a with
    | ⟨0, _⟩ => show win2_0.index t (0 : Fin 2) * 5000 + 1 * (y 0).val = (i 0).val; omega
    | ⟨1, _⟩ => show win2_0.index t (1 : Fin 2) * 128 + 1 * (y 1).val = (i 1).val; omega
  · intro y
    show V c (Pipeline.arrRef spec2 1) (((cfg2.win 1).blk t).view.emb y) = V c (Pipeline.arrRef spec2 1) y
    refine congrArg _ ?_
    funext a; apply Fin.ext
    match a with
    | ⟨0, _⟩ => show win2_1.index t (0 : Fin 2) * 128 + 1 * (y 0).val = (y 0).val; omega
    | ⟨1, _⟩ => show win2_1.index t (1 : Fin 2) * 128 + 1 * (y 1).val = (y 1).val; omega
  · show win2_2.index t (0 : Fin 2) * 5000 + 1 * (j 0).val = t.val * 5000 + (j 0).val; omega
  · show win2_2.index t (1 : Fin 2) * 128 + 1 * (j 1).val = (j 1).val; omega

/-- An index of the output array is in point t's block iff each coordinate is in the block's range on its axis. -/
theorem mem_block2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v63).slice (win2_2.rect t)).set ↔ _
  rw [View.set_slice_whole, Rect.mem_set_unit]
  exact Iff.rfl

/-- Every index of the output array is in some point's block: row r is in block r / 5000. -/
theorem covered2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := blockOnto2 ⟨(i 0).val / 5000, by omega⟩
  have q0 : win2_2.index t (0 : Fin 2) = (i 0).val / 5000 := congrFun ht 0
  have q1 : win2_2.index t (1 : Fin 2) = 0 := congrFun ht 1
  refine ⟨t, Gen.flush2_2 t, ?_⟩
  rw [mem_block2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the region's run the output array is the product of the two input arrays as the region found them. -/
theorem arr2 (c : Dev nD) :
    (Gen.dat2 (F := Ideal) V c).arrAt 2 cfg2.N
      = Cert.Dense.matProd (M := 100000) (K := 128) (N := 128) (V c (Pipeline.arrRef spec2 0)) (V c (Pipeline.arrRef spec2 1)) :=
  (Gen.dat2 (F := Ideal) V c).arrAt_eq_of_cover 2 _ (fun t _ => flushed2 V c t) covered2

end

end Cert.KernelIdeal.Mm

end
-- ==== Proof.Mm4.lean ====
/-
  The third layer's dense product, as one whole-array value.

  The region walks the 100000 rows of its left operand in 20 blocks of 5000 rows. At each block it multiplies the block
  by the whole 128 × 128 right operand, accumulating into a zero splat, and writes the 5000 × 128 result back as the same
  block of rows of the output. Narrowing to half precision is the identity on the extended reals and a product
  accumulated into zeros is the plain sum over the contracted coordinate, so each block written is a block of rows of the
  product of the two whole operands: entry (r, q) of a product reads only row r of the left operand, hence the block of
  rows of the product is the product of the block of rows. The 20 blocks cover every row (row r lies in block r / 5000),
  so after the region the output array is the product of the two input arrays as the region found them. No entry needs
  to be finite.
-/
import proofs.«164004_j66537633349984_1_alg».proof.Proof.Gen.KernelIdeal.Frame
import proofs.«164004_j66537633349984_1_alg».proof.Proof.LibDense
import proofs.«164004_j66537633349984_1_alg».proof.Proof.Mm0
import Idealize.ShloMosaic.Lib.Pipeline.Value
import Idealize.ShloMosaic.Lib.ValueIdx
import Idealize.ShloMosaic.Lib.StackMember
import Idealize.ShloMosaic.Lib.KernelVsHost
import Idealize.ShloMosaic.PureOps.Ideal.Laws

set_option maxRecDepth 16384

noncomputable section

namespace Cert.KernelIdeal.Mm

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators
open Facts₀ Facts

/-! ## The body's payload -/

/-- What the body stores from its two loaded blocks is their matrix product: the narrowings and the shape casts to the
    same shape are the identity. -/
theorem payload4 (x0 : Vec Ideal S5000x128 .f32) (x1 : Vec Ideal S128x128 .f32) :
    Gen.k4_pay1 x0 x1 = Cert.Dense.matProd (M := 5000) (K := 128) (N := 128) x0 x1 := by
  unfold Gen.k4_pay1
  show matmul dot_S5000x128_S128x128_S5000x128_1_0_0_1_n_n none
      (shapeCast S5000x128 x0 shapeCasts_S5000x128_S5000x128 : FVec Ideal S5000x128 .bf16)
      (shapeCast S128x128 x1 shapeCasts_S128x128_S128x128 : FVec Ideal S128x128 .bf16)
      (constant S5000x128 .f32 0x00000000#32) = _
  rw [shapeCast_self, shapeCast_self]
  exact matmulZero _ rfl _ _

/-! ## The index maps -/

/-- The printed index maps, decided over the grid: at point t the left operand's and the output's block is block t of
    rows (column block 0), the right operand's block is always block (0, 0); and there are 20 points. -/
theorem blockIndices4 : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0
    ∧ t.val < 20 :=
  (by decide +kernel : ∀ t : Fin grid4.N, _)

/-- Every block of rows is some point's. -/
theorem blockOnto4 : ∀ q0 : Fin 20, ∃ t : Fin cfg4.N, win4_2.index t = ![q0.val, 0] :=
  (by decide +kernel : ∀ q0 : Fin 20, ∃ t : Fin grid4.N, win4_2.index t = ![q0.val, 0])

/-! ## From the blocks to the array -/

section
variable (V : (c : Dev nD) → (b : Ref sig .tc) → Buf (Elt Ideal) ((c : Thread nD τ).loc b))

set_option maxHeartbeats 800000 in
/-- What point t writes back is block t of the product of the two input arrays as the region finds them. -/
theorem flushed4 (c : Dev nD) (t : Fin cfg4.N) :
    (Gen.dat4 (F := Ideal) V c).flushed 2 t
      = ((cfg4.win 2).blk t).view.read (Elt Ideal)
          (Cert.Dense.matProd (M := 100000) (K := 128) (N := 128) (V c (Pipeline.arrRef spec4 0)) (V c (Pipeline.arrRef spec4 1))) := by
  show (cfg4.win 2).cut (grid4.coords t) ((Gen.dat4 V c).after 2 t) = _
  rw [Gen.after4_2]
  unfold Gen.out4_2
  rw [View.canon_unit_zero zeroOffsets]
  simp only [View.ld_unit_zero (S := S5000x128) zeroOffsets, View.ld_unit_zero (S := S128x128) zeroOffsets]
  rw [payload4]
  obtain ⟨e0, e1, e2, e3, e4, e5, ht⟩ := blockIndices4 t
  funext j
  show Cert.Dense.matProd (Gen.iblk4 V c 0 t) (Gen.iblk4 V c 1 t) j
    = Cert.Dense.matProd (M := 100000) (K := 128) (N := 128) (V c (Pipeline.arrRef spec4 0)) (V c (Pipeline.arrRef spec4 1))
        (((cfg4.win 2).blk t).view.emb j)
  refine matProd_rowBlock (V c (Pipeline.arrRef spec4 0)) (V c (Pipeline.arrRef spec4 1)) (Gen.iblk4 V c 0 t) (Gen.iblk4 V c 1 t)
    t.val ?_ ?_ j (((cfg4.win 2).blk t).view.emb j) ?_ ?_
  · intro y i h0 h1
    show V c (Pipeline.arrRef spec4 0) (((cfg4.win 0).blk t).view.emb y) = V c (Pipeline.arrRef spec4 0) i
    refine congrArg _ ?_
    funext a; apply Fin.ext
    match a with
    | ⟨0, _⟩ => show win4_0.index t (0 : Fin 2) * 5000 + 1 * (y 0).val = (i 0).val; omega
    | ⟨1, _⟩ => show win4_0.index t (1 : Fin 2) * 128 + 1 * (y 1).val = (i 1).val; omega
  · intro y
    show V c (Pipeline.arrRef spec4 1) (((cfg4.win 1).blk t).view.emb y) = V c (Pipeline.arrRef spec4 1) y
    refine congrArg _ ?_
    funext a; apply Fin.ext
    match a with
    | ⟨0, _⟩ => show win4_1.index t (0 : Fin 2) * 128 + 1 * (y 0).val = (y 0).val; omega
    | ⟨1, _⟩ => show win4_1.index t (1 : Fin 2) * 128 + 1 * (y 1).val = (y 1).val; omega
  · show win4_2.index t (0 : Fin 2) * 5000 + 1 * (j 0).val = t.val * 5000 + (j 0).val; omega
  · show win4_2.index t (1 : Fin 2) * 128 + 1 * (j 1).val = (j 1).val; omega

/-- An index of the output array is in point t's block iff each coordinate is in the block's range on its axis. -/
theorem mem_block4 (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v95).slice (win4_2.rect t)).set ↔ _
  rw [View.set_slice_whole, Rect.mem_set_unit]
  exact Iff.rfl

/-- Every index of the output array is in some point's block: row r is in block r / 5000. -/
theorem covered4 (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht⟩ := blockOnto4 ⟨(i 0).val / 5000, by omega⟩
  have q0 : win4_2.index t (0 : Fin 2) = (i 0).val / 5000 := congrFun ht 0
  have q1 : win4_2.index t (1 : Fin 2) = 0 := congrFun ht 1
  refine ⟨t, Gen.flush4_2 t, ?_⟩
  rw [mem_block4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- After the region's run the output array is the product of the two input arrays as the region found them. -/
theorem arr4 (c : Dev nD) :
    (Gen.dat4 (F := Ideal) V c).arrAt 2 cfg4.N
      = Cert.Dense.matProd (M := 100000) (K := 128) (N := 128) (V c (Pipeline.arrRef spec4 0)) (V c (Pipeline.arrRef spec4 1)) :=
  (Gen.dat4 (F := Ideal) V c).arrAt_eq_of_cover 2 _ (fun t _ => flushed4 V c t) covered4

end

end Cert.KernelIdeal.Mm

end
-- ==== Proof.Bn1.lean ====
/-
  The bias, normalisation and positive-part step of one layer, as a value of whole arrays.

  The step takes a 100000 × 128 array A and five one-row arrays (bias b, scale γ, shift β, mean μ, variance σ²) and
  produces, at row r and channel q,

    max( γ(q) · ((A(r,q) + b(q)) − μ(q)) · rsqrt(σ²(q) + ε) + β(q), 0 ).

  It is computed twenty blocks of 5000 rows at a time. A block's computation reads the block of A and the whole of each
  one-row array; every operation in it is pointwise once the one-row arrays are broadcast down the rows, so entry (r, q)
  of the block's result depends only on entry (r, q) of the block of A and on entry (0, q) of each row. Block t of A is
  rows 5000·t … 5000·t + 4999, and the result is written to the same rows of the output, so the block's result is block
  t of the whole-array function; row r of the output is written by block r / 5000, so the twenty blocks cover it. Both
  sides are the same expression with the same association: nothing is rearranged and no entry need be finite.
-/
import proofs.«164004_j66537633349984_1_alg».proof.Proof.Gen.KernelIdeal.Frame
import proofs.«164004_j66537633349984_1_alg».proof.Proof.Spec
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

namespace Cert.KernelIdeal.Bn

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen
open Cert.GcnBn (SN SR bnRows bnRelu rowv epsWord)

theorem hz1 : (![0, 0] : Fin 2 → Nat) = fun _ => 0 := funext fun a => by fin_cases a <;> rfl

/-- The kernel's block computation read at row r, channel q of the block: each one-row parameter is read at (0, q),
    the bias is added first, the mean subtracted, the scale applied, then the inverse deviation, then the shift, and the
    positive part taken against the zero word. -/
theorem pay1_apply (x0 : Vec Ideal S5000x128 .f32) (b g be mu var : Vec Ideal S1x128 .f32) (r : Fin 5000) (q : Fin 128) :
    k1_pay1 (F := Ideal) x0 b var g mu be (ix2 r q)
      = max (g (ix2 (0 : Fin 1) q) * ((x0 (ix2 r q) + b (ix2 (0 : Fin 1) q)) - mu (ix2 (0 : Fin 1) q))
            * Ideal.rsqrt (var (ix2 (0 : Fin 1) q) + epsWord) + be (ix2 (0 : Fin 1) q))
          Cert.Dense.zeroWord := by
  unfold k1_pay1
  simp only [shapeCast_self]
  rw [maximumf_apply, addf_apply, mulf_apply, mulf_apply, subf_apply, addf_apply]
  rw [broadcastTo_1b_ab_apply, broadcastTo_1b_ab_apply, broadcastTo_1b_ab_apply, broadcastTo_1b_ab_apply, broadcastTo_1b_ab_apply]
  rfl

/-- The same at a block index j and an array index i in the same channel, when the block's entry at j is the array's
    entry at i, and each parameter block is its one-row array: the block computation is the whole-array function at i. -/
theorem pay1_point (x0 : Vec Ideal S5000x128 .f32) (b g be mu var : Vec Ideal S1x128 .f32)
    (A : SN.Idx → EReal) (B G Be Mu Var : SR.Idx → EReal) (j : S5000x128.Idx) (i : SN.Idx)
    (hA : x0 j = A i) (hq : (i 1).val = (j 1).val)
    (hb : b = B) (hg : g = G) (hbe : be = Be) (hmu : mu = Mu) (hvar : var = Var) :
    k1_pay1 (F := Ideal) x0 b var g mu be j = bnRows A B G Be Mu Var i := by
  subst hb hg hbe hmu hvar
  obtain ⟨r, q, rfl⟩ : ∃ (r : Fin 5000) (q : Fin 128), j = ix2 r q := ⟨j 0, j 1, eq_ix2 j⟩
  obtain ⟨r', q', rfl⟩ : ∃ (r' : Fin 100000) (q' : Fin 128), i = ix2 r' q' := ⟨i 0, i 1, eq_ix2 i⟩
  obtain rfl : q' = q := Fin.ext hq
  rw [pay1_apply, hA]
  rfl

/-- The index maps over the twenty grid points: the input and the output move one block of 5000 rows per point, the
    five parameter rows stay at block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

/-- A parameter window's one block is its whole one-row array. -/
theorem iblk1_1 (c : Dev nD) (t : Fin cfg1.N) : (iblk1 V c 1 t : Vec Ideal S1x128 .f32) = V c (Pipeline.arrRef spec1 1) := by
  obtain ⟨-, -, e0, e1, -⟩ := idx_facts1 t
  funext y
  show V c (Pipeline.arrRef spec1 1) (((cfg1.win 1).blk t).view.emb y) = V c (Pipeline.arrRef spec1 1) y
  congr 1
  funext a; apply Fin.ext
  match a with
  | ⟨0, _⟩ => show win1_1.index t (0 : Fin 2) * 1 + 1 * (y 0).val = (y 0).val; omega
  | ⟨1, _⟩ => show win1_1.index t (1 : Fin 2) * 128 + 1 * (y 1).val = (y 1).val; omega
theorem iblk1_2 (c : Dev nD) (t : Fin cfg1.N) : (iblk1 V c 2 t : Vec Ideal S1x128 .f32) = V c (Pipeline.arrRef spec1 2) := by
  obtain ⟨-, -, -, -, e2_0, e2_1, e3_0, e3_1, e4_0, e4_1, e5_0, e5_1, -⟩ := idx_facts1 t
  funext y
  show V c (Pipeline.arrRef spec1 2) (((cfg1.win 2).blk t).view.emb y) = V c (Pipeline.arrRef spec1 2) y
  congr 1
  funext a; apply Fin.ext
  match a with
  | ⟨0, _⟩ => show win1_2.index t (0 : Fin 2) * 1 + 1 * (y 0).val = (y 0).val; omega
  | ⟨1, _⟩ => show win1_2.index t (1 : Fin 2) * 128 + 1 * (y 1).val = (y 1).val; omega
theorem iblk1_3 (c : Dev nD) (t : Fin cfg1.N) : (iblk1 V c 3 t : Vec Ideal S1x128 .f32) = V c (Pipeline.arrRef spec1 3) := by
  obtain ⟨-, -, -, -, e2_0, e2_1, e3_0, e3_1, e4_0, e4_1, e5_0, e5_1, -⟩ := idx_facts1 t
  funext y
  show V c (Pipeline.arrRef spec1 3) (((cfg1.win 3).blk t).view.emb y) = V c (Pipeline.arrRef spec1 3) y
  congr 1
  funext a; apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega
theorem iblk1_4 (c : Dev nD) (t : Fin cfg1.N) : (iblk1 V c 4 t : Vec Ideal S1x128 .f32) = V c (Pipeline.arrRef spec1 4) := by
  obtain ⟨-, -, -, -, e2_0, e2_1, e3_0, e3_1, e4_0, e4_1, e5_0, e5_1, -⟩ := idx_facts1 t
  funext y
  show V c (Pipeline.arrRef spec1 4) (((cfg1.win 4).blk t).view.emb y) = V c (Pipeline.arrRef spec1 4) y
  congr 1
  funext a; apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega
theorem iblk1_5 (c : Dev nD) (t : Fin cfg1.N) : (iblk1 V c 5 t : Vec Ideal S1x128 .f32) = V c (Pipeline.arrRef spec1 5) := by
  obtain ⟨-, -, -, -, e2_0, e2_1, e3_0, e3_1, e4_0, e4_1, e5_0, e5_1, -⟩ := idx_facts1 t
  funext y
  show V c (Pipeline.arrRef spec1 5) (((cfg1.win 5).blk t).view.emb y) = V c (Pipeline.arrRef spec1 5) y
  congr 1
  funext a; apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

set_option maxHeartbeats 400000 in
/-- What grid point t writes back is block t of the whole-array function of the arrays as the region finds them: the
    input block's entry (r, q) is the input array's entry (5000·t + r, q), which is where the output block's entry
    (r, q) lands, and each parameter block is its whole row. -/
theorem flushed1 (c : Dev nD) (t : Fin cfg1.N) :
    (dat1 (F := Ideal) V c).flushed 6 t = ((cfg1.win 6).blk t).view.read (Elt Ideal)
      (bnRows (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) := by
  show (cfg1.win 6).cut (grid1.coords t) ((dat1 V c).after 6 t) = _
  rw [after1_6]
  unfold out1_6
  rw [View.canon_unit_zero hz1]
  simp only [View.ld_unit_zero (S := S5000x128) hz1, View.ld_unit_zero (S := S1x128) hz1]
  obtain ⟨e0_0, e0_1, -, -, -, -, -, -, -, -, -, -, e6_0, e6_1⟩ := idx_facts1 t
  funext j
  refine pay1_point (iblk1 V c 0 t) (iblk1 V c 1 t) (iblk1 V c 2 t) (iblk1 V c 3 t) (iblk1 V c 4 t) (iblk1 V c 5 t)
    (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))
    j (((cfg1.win 6).blk t).view.emb j) ?_ ?_ (iblk1_1 V c t) (iblk1_2 V c t) (iblk1_3 V c t) (iblk1_4 V c t) (iblk1_5 V c t)
  · show V c (Pipeline.arrRef spec1 0) (((cfg1.win 0).blk t).view.emb j) = V c (Pipeline.arrRef spec1 0) (((cfg1.win 6).blk t).view.emb j)
    refine congrArg (V c (Pipeline.arrRef spec1 0)) (funext fun a => Fin.ext ?_)
    match a with
    | ⟨0, _⟩ => show win1_0.index t (0 : Fin 2) * 5000 + 1 * (j 0).val = win1_6.index t (0 : Fin 2) * 5000 + 1 * (j 0).val; omega
    | ⟨1, _⟩ => show win1_0.index t (1 : Fin 2) * 128 + 1 * (j 1).val = win1_6.index t (1 : Fin 2) * 128 + 1 * (j 1).val; omega
  · show win1_6.index t (1 : Fin 2) * 128 + 1 * (j 1).val = (j 1).val
    omega

/-- An index of the output array is in point t's block iff each coordinate is in the block's range on its axis. -/
theorem mem_blk1 (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v60).slice (win1_6.rect t)).set ↔ _
  rw [View.set_slice_whole, Rect.mem_set_unit]
  exact Iff.rfl

/-- Every entry of the output array is written: row r lies in the block of point r / 5000. -/
theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨-, -, -, -, -, -, -, -, -, -, -, -, e6_0, e6_1⟩ := idx_facts1 t
  have ht : t.val = (i 0).val / 5000 := rfl
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- The output array after the region: the bias, normalisation, scale, shift and positive part of the input array, with
    the five one-row parameter arrays, all as the region finds them. -/
theorem arr1 (c : Dev nD) :
    (dat1 (F := Ideal) V c).arrAt 6 cfg1.N
      = bnRows (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) :=
  (dat1 (F := Ideal) V c).arrAt_eq_of_cover 6 _ (fun t _ => flushed1 V c t) cover1

end Cert.KernelIdeal.Bn

end
-- ==== Proof.Bn3.lean ====
/-
  The bias, normalisation and positive-part step of one layer, as a value of whole arrays.

  The step takes a 100000 × 128 array A and five one-row arrays (bias b, scale γ, shift β, mean μ, variance σ²) and
  produces, at row r and channel q,

    max( γ(q) · ((A(r,q) + b(q)) − μ(q)) · rsqrt(σ²(q) + ε) + β(q), 0 ).

  It is computed twenty blocks of 5000 rows at a time. A block's computation reads the block of A and the whole of each
  one-row array; every operation in it is pointwise once the one-row arrays are broadcast down the rows, so entry (r, q)
  of the block's result depends only on entry (r, q) of the block of A and on entry (0, q) of each row. Block t of A is
  rows 5000·t … 5000·t + 4999, and the result is written to the same rows of the output, so the block's result is block
  t of the whole-array function; row r of the output is written by block r / 5000, so the twenty blocks cover it. Both
  sides are the same expression with the same association: nothing is rearranged and no entry need be finite.
-/
import proofs.«164004_j66537633349984_1_alg».proof.Proof.Gen.KernelIdeal.Frame
import proofs.«164004_j66537633349984_1_alg».proof.Proof.Spec
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

namespace Cert.KernelIdeal.Bn

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen
open Cert.GcnBn (SN SR bnRows bnRelu rowv epsWord)

theorem hz3 : (![0, 0] : Fin 2 → Nat) = fun _ => 0 := funext fun a => by fin_cases a <;> rfl

/-- The kernel's block computation read at row r, channel q of the block: each one-row parameter is read at (0, q),
    the bias is added first, the mean subtracted, the scale applied, then the inverse deviation, then the shift, and the
    positive part taken against the zero word. -/
theorem pay3_apply (x0 : Vec Ideal S5000x128 .f32) (b g be mu var : Vec Ideal S1x128 .f32) (r : Fin 5000) (q : Fin 128) :
    k3_pay1 (F := Ideal) x0 b var g mu be (ix2 r q)
      = max (g (ix2 (0 : Fin 1) q) * ((x0 (ix2 r q) + b (ix2 (0 : Fin 1) q)) - mu (ix2 (0 : Fin 1) q))
            * Ideal.rsqrt (var (ix2 (0 : Fin 1) q) + epsWord) + be (ix2 (0 : Fin 1) q))
          Cert.Dense.zeroWord := by
  unfold k3_pay1
  simp only [shapeCast_self]
  rw [maximumf_apply, addf_apply, mulf_apply, mulf_apply, subf_apply, addf_apply]
  rw [broadcastTo_1b_ab_apply, broadcastTo_1b_ab_apply, broadcastTo_1b_ab_apply, broadcastTo_1b_ab_apply, broadcastTo_1b_ab_apply]
  rfl

/-- The same at a block index j and an array index i in the same channel, when the block's entry at j is the array's
    entry at i, and each parameter block is its one-row array: the block computation is the whole-array function at i. -/
theorem pay3_point (x0 : Vec Ideal S5000x128 .f32) (b g be mu var : Vec Ideal S1x128 .f32)
    (A : SN.Idx → EReal) (B G Be Mu Var : SR.Idx → EReal) (j : S5000x128.Idx) (i : SN.Idx)
    (hA : x0 j = A i) (hq : (i 1).val = (j 1).val)
    (hb : b = B) (hg : g = G) (hbe : be = Be) (hmu : mu = Mu) (hvar : var = Var) :
    k3_pay1 (F := Ideal) x0 b var g mu be j = bnRows A B G Be Mu Var i := by
  subst hb hg hbe hmu hvar
  obtain ⟨r, q, rfl⟩ : ∃ (r : Fin 5000) (q : Fin 128), j = ix2 r q := ⟨j 0, j 1, eq_ix2 j⟩
  obtain ⟨r', q', rfl⟩ : ∃ (r' : Fin 100000) (q' : Fin 128), i = ix2 r' q' := ⟨i 0, i 1, eq_ix2 i⟩
  obtain rfl : q' = q := Fin.ext hq
  rw [pay3_apply, hA]
  rfl

/-- The index maps over the twenty grid points: the input and the output move one block of 5000 rows per point, the
    five parameter rows stay at block (0, 0). -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

variable (V : (c : Dev nD) → (b : Ref sig .tc) → Buf (Elt Ideal) ((c : Thread nD τ).loc b))

/-- A parameter window's one block is its whole one-row array. -/
theorem iblk3_1 (c : Dev nD) (t : Fin cfg3.N) : (iblk3 V c 1 t : Vec Ideal S1x128 .f32) = V c (Pipeline.arrRef spec3 1) := by
  obtain ⟨-, -, e0, e1, -⟩ := idx_facts3 t
  funext y
  show V c (Pipeline.arrRef spec3 1) (((cfg3.win 1).blk t).view.emb y) = V c (Pipeline.arrRef spec3 1) y
  congr 1
  funext a; apply Fin.ext
  match a with
  | ⟨0, _⟩ => show win3_1.index t (0 : Fin 2) * 1 + 1 * (y 0).val = (y 0).val; omega
  | ⟨1, _⟩ => show win3_1.index t (1 : Fin 2) * 128 + 1 * (y 1).val = (y 1).val; omega
theorem iblk3_2 (c : Dev nD) (t : Fin cfg3.N) : (iblk3 V c 2 t : Vec Ideal S1x128 .f32) = V c (Pipeline.arrRef spec3 2) := by
  obtain ⟨-, -, -, -, e2_0, e2_1, e3_0, e3_1, e4_0, e4_1, e5_0, e5_1, -⟩ := idx_facts3 t
  funext y
  show V c (Pipeline.arrRef spec3 2) (((cfg3.win 2).blk t).view.emb y) = V c (Pipeline.arrRef spec3 2) y
  congr 1
  funext a; apply Fin.ext
  match a with
  | ⟨0, _⟩ => show win3_2.index t (0 : Fin 2) * 1 + 1 * (y 0).val = (y 0).val; omega
  | ⟨1, _⟩ => show win3_2.index t (1 : Fin 2) * 128 + 1 * (y 1).val = (y 1).val; omega
theorem iblk3_3 (c : Dev nD) (t : Fin cfg3.N) : (iblk3 V c 3 t : Vec Ideal S1x128 .f32) = V c (Pipeline.arrRef spec3 3) := by
  obtain ⟨-, -, -, -, e2_0, e2_1, e3_0, e3_1, e4_0, e4_1, e5_0, e5_1, -⟩ := idx_facts3 t
  funext y
  show V c (Pipeline.arrRef spec3 3) (((cfg3.win 3).blk t).view.emb y) = V c (Pipeline.arrRef spec3 3) y
  congr 1
  funext a; apply Fin.ext
  match a with
  | ⟨0, _⟩ => show win3_3.index t (0 : Fin 2) * 1 + 1 * (y 0).val = (y 0).val; omega
  | ⟨1, _⟩ => show win3_3.index t (1 : Fin 2) * 128 + 1 * (y 1).val = (y 1).val; omega
theorem iblk3_4 (c : Dev nD) (t : Fin cfg3.N) : (iblk3 V c 4 t : Vec Ideal S1x128 .f32) = V c (Pipeline.arrRef spec3 4) := by
  obtain ⟨-, -, -, -, e2_0, e2_1, e3_0, e3_1, e4_0, e4_1, e5_0, e5_1, -⟩ := idx_facts3 t
  funext y
  show V c (Pipeline.arrRef spec3 4) (((cfg3.win 4).blk t).view.emb y) = V c (Pipeline.arrRef spec3 4) y
  congr 1
  funext a; apply Fin.ext
  match a with
  | ⟨0, _⟩ => show win3_4.index t (0 : Fin 2) * 1 + 1 * (y 0).val = (y 0).val; omega
  | ⟨1, _⟩ => show win3_4.index t (1 : Fin 2) * 128 + 1 * (y 1).val = (y 1).val; omega
theorem iblk3_5 (c : Dev nD) (t : Fin cfg3.N) : (iblk3 V c 5 t : Vec Ideal S1x128 .f32) = V c (Pipeline.arrRef spec3 5) := by
  obtain ⟨-, -, -, -, e2_0, e2_1, e3_0, e3_1, e4_0, e4_1, e5_0, e5_1, -⟩ := idx_facts3 t
  funext y
  show V c (Pipeline.arrRef spec3 5) (((cfg3.win 5).blk t).view.emb y) = V c (Pipeline.arrRef spec3 5) y
  congr 1
  funext a; apply Fin.ext
  match a with
  | ⟨0, _⟩ => show win3_5.index t (0 : Fin 2) * 1 + 1 * (y 0).val = (y 0).val; omega
  | ⟨1, _⟩ => show win3_5.index t (1 : Fin 2) * 128 + 1 * (y 1).val = (y 1).val; omega

set_option maxHeartbeats 400000 in
/-- What grid point t writes back is block t of the whole-array function of the arrays as the region finds them: the
    input block's entry (r, q) is the input array's entry (5000·t + r, q), which is where the output block's entry
    (r, q) lands, and each parameter block is its whole row. -/
theorem flushed3 (c : Dev nD) (t : Fin cfg3.N) :
    (dat3 (F := Ideal) V c).flushed 6 t = ((cfg3.win 6).blk t).view.read (Elt Ideal)
      (bnRows (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) := by
  show (cfg3.win 6).cut (grid3.coords t) ((dat3 V c).after 6 t) = _
  rw [after3_6]
  unfold out3_6
  rw [View.canon_unit_zero hz3]
  simp only [View.ld_unit_zero (S := S5000x128) hz3, View.ld_unit_zero (S := S1x128) hz3]
  obtain ⟨e0_0, e0_1, -, -, -, -, -, -, -, -, -, -, e6_0, e6_1⟩ := idx_facts3 t
  funext j
  refine pay3_point (iblk3 V c 0 t) (iblk3 V c 1 t) (iblk3 V c 2 t) (iblk3 V c 3 t) (iblk3 V c 4 t) (iblk3 V c 5 t)
    (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))
    j (((cfg3.win 6).blk t).view.emb j) ?_ ?_ (iblk3_1 V c t) (iblk3_2 V c t) (iblk3_3 V c t) (iblk3_4 V c t) (iblk3_5 V c t)
  · show V c (Pipeline.arrRef spec3 0) (((cfg3.win 0).blk t).view.emb j) = V c (Pipeline.arrRef spec3 0) (((cfg3.win 6).blk t).view.emb j)
    refine congrArg (V c (Pipeline.arrRef spec3 0)) (funext fun a => Fin.ext ?_)
    match a with
    | ⟨0, _⟩ => show win3_0.index t (0 : Fin 2) * 5000 + 1 * (j 0).val = win3_6.index t (0 : Fin 2) * 5000 + 1 * (j 0).val; omega
    | ⟨1, _⟩ => show win3_0.index t (1 : Fin 2) * 128 + 1 * (j 1).val = win3_6.index t (1 : Fin 2) * 128 + 1 * (j 1).val; omega
  · show win3_6.index t (1 : Fin 2) * 128 + 1 * (j 1).val = (j 1).val
    omega

/-- An index of the output array is in point t's block iff each coordinate is in the block's range on its axis. -/
theorem mem_blk3 (t : Fin cfg3.N) (i : S100000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v92).slice (win3_6.rect t)).set ↔ _
  rw [View.set_slice_whole, Rect.mem_set_unit]
  exact Iff.rfl

/-- Every entry of the output array is written: row r lies in the block of point r / 5000. -/
theorem cover3 (i : S100000x128.Idx) :
    ∃ t : Fin cfg3.N, (cfg3.win 6).flush t = true ∧ i ∈ ((cfg3.win 6).blk t).view.set := by
  have hi0 : (i 0).val < 100000 := (i 0).isLt
  have hi1 : (i 1).val < 128 := (i 1).isLt
  have hN : cfg3.N = 20 := N_3
  let t : Fin cfg3.N := ⟨(i 0).val / 5000, by rw [hN]; omega⟩
  obtain ⟨-, -, -, -, -, -, -, -, -, -, -, -, e6_0, e6_1⟩ := idx_facts3 t
  have ht : t.val = (i 0).val / 5000 := rfl
  refine ⟨t, flush3_6 t, ?_⟩
  rw [mem_blk3]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 128 ≤ (i 1).val ∧ (i 1).val < win3_6.index t (1 : Fin 2) * 128 + 128; omega

/-- The output array after the region: the bias, normalisation, scale, shift and positive part of the input array, with
    the five one-row parameter arrays, all as the region finds them. -/
theorem arr3 (c : Dev nD) :
    (dat3 (F := Ideal) V c).arrAt 6 cfg3.N
      = bnRows (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) :=
  (dat3 (F := Ideal) V c).arrAt_eq_of_cover 6 _ (fun t _ => flushed3 V c t) cover3

end Cert.KernelIdeal.Bn

end
-- ==== Proof.Bn5.lean ====
/-
  The bias, normalisation and positive-part step of one layer, as a value of whole arrays.

  The step takes a 100000 × 128 array A and five one-row arrays (bias b, scale γ, shift β, mean μ, variance σ²) and
  produces, at row r and channel q,

    max( γ(q) · ((A(r,q) + b(q)) − μ(q)) · rsqrt(σ²(q) + ε) + β(q), 0 ).

  It is computed twenty blocks of 5000 rows at a time. A block's computation reads the block of A and the whole of each
  one-row array; every operation in it is pointwise once the one-row arrays are broadcast down the rows, so entry (r, q)
  of the block's result depends only on entry (r, q) of the block of A and on entry (0, q) of each row. Block t of A is
  rows 5000·t … 5000·t + 4999, and the result is written to the same rows of the output, so the block's result is block
  t of the whole-array function; row r of the output is written by block r / 5000, so the twenty blocks cover it. Both
  sides are the same expression with the same association: nothing is rearranged and no entry need be finite.
-/
import proofs.«164004_j66537633349984_1_alg».proof.Proof.Gen.KernelIdeal.Frame
import proofs.«164004_j66537633349984_1_alg».proof.Proof.Spec
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

namespace Cert.KernelIdeal.Bn

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen
open Cert.GcnBn (SN SR bnRows bnRelu rowv epsWord)

theorem hz5 : (![0, 0] : Fin 2 → Nat) = fun _ => 0 := funext fun a => by fin_cases a <;> rfl

/-- The kernel's block computation read at row r, channel q of the block: each one-row parameter is read at (0, q),
    the bias is added first, the mean subtracted, the scale applied, then the inverse deviation, then the shift, and the
    positive part taken against the zero word. -/
theorem pay5_apply (x0 : Vec Ideal S5000x128 .f32) (b g be mu var : Vec Ideal S1x128 .f32) (r : Fin 5000) (q : Fin 128) :
    k5_pay1 (F := Ideal) x0 b var g mu be (ix2 r q)
      = max (g (ix2 (0 : Fin 1) q) * ((x0 (ix2 r q) + b (ix2 (0 : Fin 1) q)) - mu (ix2 (0 : Fin 1) q))
            * Ideal.rsqrt (var (ix2 (0 : Fin 1) q) + epsWord) + be (ix2 (0 : Fin 1) q))
          Cert.Dense.zeroWord := by
  unfold k5_pay1
  simp only [shapeCast_self]
  rw [maximumf_apply, addf_apply, mulf_apply, mulf_apply, subf_apply, addf_apply]
  rw [broadcastTo_1b_ab_apply, broadcastTo_1b_ab_apply, broadcastTo_1b_ab_apply, broadcastTo_1b_ab_apply, broadcastTo_1b_ab_apply]
  rfl

/-- The same at a block index j and an array index i in the same channel, when the block's entry at j is the array's
    entry at i, and each parameter block is its one-row array: the block computation is the whole-array function at i. -/
theorem pay5_point (x0 : Vec Ideal S5000x128 .f32) (b g be mu var : Vec Ideal S1x128 .f32)
    (A : SN.Idx → EReal) (B G Be Mu Var : SR.Idx → EReal) (j : S5000x128.Idx) (i : SN.Idx)
    (hA : x0 j = A i) (hq : (i 1).val = (j 1).val)
    (hb : b = B) (hg : g = G) (hbe : be = Be) (hmu : mu = Mu) (hvar : var = Var) :
    k5_pay1 (F := Ideal) x0 b var g mu be j = bnRows A B G Be Mu Var i := by
  subst hb hg hbe hmu hvar
  obtain ⟨r, q, rfl⟩ : ∃ (r : Fin 5000) (q : Fin 128), j = ix2 r q := ⟨j 0, j 1, eq_ix2 j⟩
  obtain ⟨r', q', rfl⟩ : ∃ (r' : Fin 100000) (q' : Fin 128), i = ix2 r' q' := ⟨i 0, i 1, eq_ix2 i⟩
  obtain rfl : q' = q := Fin.ext hq
  rw [pay5_apply, hA]
  rfl

/-- The index maps over the twenty grid points: the input and the output move one block of 5000 rows per point, the
    five parameter rows stay at block (0, 0). -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

variable (V : (c : Dev nD) → (b : Ref sig .tc) → Buf (Elt Ideal) ((c : Thread nD τ).loc b))

/-- A parameter window's one block is its whole one-row array. -/
theorem iblk5_1 (c : Dev nD) (t : Fin cfg5.N) : (iblk5 V c 1 t : Vec Ideal S1x128 .f32) = V c (Pipeline.arrRef spec5 1) := by
  obtain ⟨-, -, e0, e1, -⟩ := idx_facts5 t
  funext y
  show V c (Pipeline.arrRef spec5 1) (((cfg5.win 1).blk t).view.emb y) = V c (Pipeline.arrRef spec5 1) y
  congr 1
  funext a; apply Fin.ext
  match a with
  | ⟨0, _⟩ => show win5_1.index t (0 : Fin 2) * 1 + 1 * (y 0).val = (y 0).val; omega
  | ⟨1, _⟩ => show win5_1.index t (1 : Fin 2) * 128 + 1 * (y 1).val = (y 1).val; omega
theorem iblk5_2 (c : Dev nD) (t : Fin cfg5.N) : (iblk5 V c 2 t : Vec Ideal S1x128 .f32) = V c (Pipeline.arrRef spec5 2) := by
  obtain ⟨-, -, -, -, e2_0, e2_1, e3_0, e3_1, e4_0, e4_1, e5_0, e5_1, -⟩ := idx_facts5 t
  funext y
  show V c (Pipeline.arrRef spec5 2) (((cfg5.win 2).blk t).view.emb y) = V c (Pipeline.arrRef spec5 2) y
  congr 1
  funext a; apply Fin.ext
  match a with
  | ⟨0, _⟩ => show win5_2.index t (0 : Fin 2) * 1 + 1 * (y 0).val = (y 0).val; omega
  | ⟨1, _⟩ => show win5_2.index t (1 : Fin 2) * 128 + 1 * (y 1).val = (y 1).val; omega
theorem iblk5_3 (c : Dev nD) (t : Fin cfg5.N) : (iblk5 V c 3 t : Vec Ideal S1x128 .f32) = V c (Pipeline.arrRef spec5 3) := by
  obtain ⟨-, -, -, -, e2_0, e2_1, e3_0, e3_1, e4_0, e4_1, e5_0, e5_1, -⟩ := idx_facts5 t
  funext y
  show V c (Pipeline.arrRef spec5 3) (((cfg5.win 3).blk t).view.emb y) = V c (Pipeline.arrRef spec5 3) y
  congr 1
  funext a; apply Fin.ext
  match a with
  | ⟨0, _⟩ => show win5_3.index t (0 : Fin 2) * 1 + 1 * (y 0).val = (y 0).val; omega
  | ⟨1, _⟩ => show win5_3.index t (1 : Fin 2) * 128 + 1 * (y 1).val = (y 1).val; omega
theorem iblk5_4 (c : Dev nD) (t : Fin cfg5.N) : (iblk5 V c 4 t : Vec Ideal S1x128 .f32) = V c (Pipeline.arrRef spec5 4) := by
  obtain ⟨-, -, -, -, e2_0, e2_1, e3_0, e3_1, e4_0, e4_1, e5_0, e5_1, -⟩ := idx_facts5 t
  funext y
  show V c (Pipeline.arrRef spec5 4) (((cfg5.win 4).blk t).view.emb y) = V c (Pipeline.arrRef spec5 4) y
  congr 1
  funext a; apply Fin.ext
  match a with
  | ⟨0, _⟩ => show win5_4.index t (0 : Fin 2) * 1 + 1 * (y 0).val = (y 0).val; omega
  | ⟨1, _⟩ => show win5_4.index t (1 : Fin 2) * 128 + 1 * (y 1).val = (y 1).val; omega
theorem iblk5_5 (c : Dev nD) (t : Fin cfg5.N) : (iblk5 V c 5 t : Vec Ideal S1x128 .f32) = V c (Pipeline.arrRef spec5 5) := by
  obtain ⟨-, -, -, -, e2_0, e2_1, e3_0, e3_1, e4_0, e4_1, e5_0, e5_1, -⟩ := idx_facts5 t
  funext y
  show V c (Pipeline.arrRef spec5 5) (((cfg5.win 5).blk t).view.emb y) = V c (Pipeline.arrRef spec5 5) y
  congr 1
  funext a; apply Fin.ext
  match a with
  | ⟨0, _⟩ => show win5_5.index t (0 : Fin 2) * 1 + 1 * (y 0).val = (y 0).val; omega
  | ⟨1, _⟩ => show win5_5.index t (1 : Fin 2) * 128 + 1 * (y 1).val = (y 1).val; omega

set_option maxHeartbeats 400000 in
/-- What grid point t writes back is block t of the whole-array function of the arrays as the region finds them: the
    input block's entry (r, q) is the input array's entry (5000·t + r, q), which is where the output block's entry
    (r, q) lands, and each parameter block is its whole row. -/
theorem flushed5 (c : Dev nD) (t : Fin cfg5.N) :
    (dat5 (F := Ideal) V c).flushed 6 t = ((cfg5.win 6).blk t).view.read (Elt Ideal)
      (bnRows (V c (Pipeline.arrRef spec5 0)) (V c (Pipeline.arrRef spec5 1)) (V c (Pipeline.arrRef spec5 2)) (V c (Pipeline.arrRef spec5 3)) (V c (Pipeline.arrRef spec5 4)) (V c (Pipeline.arrRef spec5 5))) := by
  show (cfg5.win 6).cut (grid5.coords t) ((dat5 V c).after 6 t) = _
  rw [after5_6]
  unfold out5_6
  rw [View.canon_unit_zero hz5]
  simp only [View.ld_unit_zero (S := S5000x128) hz5, View.ld_unit_zero (S := S1x128) hz5]
  obtain ⟨e0_0, e0_1, -, -, -, -, -, -, -, -, -, -, e6_0, e6_1⟩ := idx_facts5 t
  funext j
  refine pay5_point (iblk5 V c 0 t) (iblk5 V c 1 t) (iblk5 V c 2 t) (iblk5 V c 3 t) (iblk5 V c 4 t) (iblk5 V c 5 t)
    (V c (Pipeline.arrRef spec5 0)) (V c (Pipeline.arrRef spec5 1)) (V c (Pipeline.arrRef spec5 2)) (V c (Pipeline.arrRef spec5 3)) (V c (Pipeline.arrRef spec5 4)) (V c (Pipeline.arrRef spec5 5))
    j (((cfg5.win 6).blk t).view.emb j) ?_ ?_ (iblk5_1 V c t) (iblk5_2 V c t) (iblk5_3 V c t) (iblk5_4 V c t) (iblk5_5 V c t)
  · show V c (Pipeline.arrRef spec5 0) (((cfg5.win 0).blk t).view.emb j) = V c (Pipeline.arrRef spec5 0) (((cfg5.win 6).blk t).view.emb j)
    refine congrArg (V c (Pipeline.arrRef spec5 0)) (funext fun a => Fin.ext ?_)
    match a with
    | ⟨0, _⟩ => show win5_0.index t (0 : Fin 2) * 5000 + 1 * (j 0).val = win5_6.index t (0 : Fin 2) * 5000 + 1 * (j 0).val; omega
    | ⟨1, _⟩ => show win5_0.index t (1 : Fin 2) * 128 + 1 * (j 1).val = win5_6.index t (1 : Fin 2) * 128 + 1 * (j 1).val; omega
  · show win5_6.index t (1 : Fin 2) * 128 + 1 * (j 1).val = (j 1).val
    omega

/-- An index of the output array is in point t's block iff each coordinate is in the block's range on its axis. -/
theorem mem_blk5 (t : Fin cfg5.N) (i : S100000x128.Idx) :
    i ∈ ((cfg5.win 6).blk t).view.set ↔ ∀ a : Fin 2, win5_6.index t a * S5000x128.size a ≤ (i a).val ∧ (i a).val < win5_6.index t a * S5000x128.size a + S5000x128.size a := by
  show i ∈ ((View.whole main_v124).slice (win5_6.rect t)).set ↔ _
  rw [View.set_slice_whole, Rect.mem_set_unit]
  exact Iff.rfl

/-- Every entry of the output array is written: row r lies in the block of point r / 5000. -/
theorem cover5 (i : S100000x128.Idx) :
    ∃ t : Fin cfg5.N, (cfg5.win 6).flush t = true ∧ i ∈ ((cfg5.win 6).blk t).view.set := by
  have hi0 : (i 0).val < 100000 := (i 0).isLt
  have hi1 : (i 1).val < 128 := (i 1).isLt
  have hN : cfg5.N = 20 := N_5
  let t : Fin cfg5.N := ⟨(i 0).val / 5000, by rw [hN]; omega⟩
  obtain ⟨-, -, -, -, -, -, -, -, -, -, -, -, e6_0, e6_1⟩ := idx_facts5 t
  have ht : t.val = (i 0).val / 5000 := rfl
  refine ⟨t, flush5_6 t, ?_⟩
  rw [mem_blk5]
  intro a
  match a with
  | ⟨0, _⟩ => show win5_6.index t (0 : Fin 2) * 5000 ≤ (i 0).val ∧ (i 0).val < win5_6.index t (0 : Fin 2) * 5000 + 5000; omega
  | ⟨1, _⟩ => show win5_6.index t (1 : Fin 2) * 128 ≤ (i 1).val ∧ (i 1).val < win5_6.index t (1 : Fin 2) * 128 + 128; omega

/-- The output array after the region: the bias, normalisation, scale, shift and positive part of the input array, with
    the five one-row parameter arrays, all as the region finds them. -/
theorem arr5 (c : Dev nD) :
    (dat5 (F := Ideal) V c).arrAt 6 cfg5.N
      = bnRows (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) :=
  (dat5 (F := Ideal) V c).arrAt_eq_of_cover 6 _ (fun t _ => flushed5 V c t) cover5

end Cert.KernelIdeal.Bn

end
-- ==== Proof.KLayer.lean ====
/-
  The idealized kernel's result: the three-layer network of the specification.

  Each layer is two regions. The first leaves the product of the layer's input by the layer's weight matrix; the
  host code aggregates that product over the edges; the second adds the bias, normalises, scales, shifts and takes the
  positive part. Chaining the regions' values through the host stretches between them, the array the last region
  leaves is the network applied to the launch contents of the arguments, with the aggregation the reference applies.
-/
import Idealize.ShloMosaic.PureOps.Ideal
import proofs.«164004_j66537633349984_1_alg».proof.Proof.Gen.KernelIdeal.Frame
import proofs.«164004_j66537633349984_1_alg».proof.Proof.Spec
import proofs.«164004_j66537633349984_1_alg».proof.Proof.RAgg
import proofs.«164004_j66537633349984_1_alg».proof.Proof.KCarry
import proofs.«164004_j66537633349984_1_alg».proof.Proof.KHost0
import proofs.«164004_j66537633349984_1_alg».proof.Proof.KHost1
import proofs.«164004_j66537633349984_1_alg».proof.Proof.KHost3
import proofs.«164004_j66537633349984_1_alg».proof.Proof.KHost5
import proofs.«164004_j66537633349984_1_alg».proof.Proof.Mm0
import proofs.«164004_j66537633349984_1_alg».proof.Proof.Mm2
import proofs.«164004_j66537633349984_1_alg».proof.Proof.Mm4
import proofs.«164004_j66537633349984_1_alg».proof.Proof.Bn1
import proofs.«164004_j66537633349984_1_alg».proof.Proof.Bn3
import proofs.«164004_j66537633349984_1_alg».proof.Proof.Bn5

set_option maxRecDepth 16384

noncomputable section

namespace Cert.KernelIdeal.KVal

open Cert.KernelIdeal Cert.KernelIdeal.Gen
open Idealize.ShloMosaic Idealize.ShloMosaic.TcCoe Idealize.ShloMosaic.Tactic
open Idealize.SL Idealize.SL.Sem
open Idealize.ShloMosaic.StableHlo
open Idealize.ShloMosaic.Pipeline (Dat Cfg Window)

open Cert.ReferenceIdeal.RefValue (aggR)
variable (m : (ℓ : Loc nD τ sig) → Buf (Elt Ideal) ℓ) (ρ : Dev nD → PrngReg)

/-! ## Layer 0 -/

/-- The first product: the input features by the first layer's weights. -/
theorem prod2 (c : Dev nD) : W2 m ρ c (Proc.devRef .tc main_v31)
    = Cert.Dense.matProd (m ((c : Thread nD τ).loc main_arg0)) (Cert.GcnBn.weight (m ((c : Thread nD τ).loc main_arg3)) 0) := by
  refine (W2_arr m ρ c 2).trans ?_
  rw [Mm.arr0 (V1 m ρ) c]
  show Cert.Dense.matProd (W1 m ρ c (Proc.devRef .tc main_arg0)) (W1 m ρ c (Proc.devRef .tc main_v30)) = _
  rw [KCarry.arg_at1 m ρ c (b := main_arg0) (by decide), KHost.weights1 m ρ c]

/-- The first layer's output. -/
theorem layer0 (c : Dev nD) : W4 m ρ c (Proc.devRef .tc main_v60)
    = Cert.GcnBn.layer (aggR (m ((c : Thread nD τ).loc main_arg1))) 0 (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 6).trans ?_
  rw [Bn.arr1 (V3 m ρ) c]
  show Cert.GcnBn.bnRows (W3 m ρ c (Proc.devRef .tc main_v44)) (W3 m ρ c (Proc.devRef .tc main_v47)) (W3 m ρ c (Proc.devRef .tc main_v50))
      (W3 m ρ c (Proc.devRef .tc main_v53)) (W3 m ρ c (Proc.devRef .tc main_v56)) (W3 m ρ c (Proc.devRef .tc main_v59)) = _
  unfold Cert.GcnBn.bnRows Cert.GcnBn.layer
  rw [KHost.agg3 m ρ c, KHost.bias3 m ρ c, KHost.scale3 m ρ c, KHost.shift3 m ρ c, KHost.mean3 m ρ c, KHost.var3 m ρ c, prod2 m ρ c]

/-! ## Layer 1 -/

/-- The second product: the first layer's output by the second layer's weights. -/
theorem prod6 (c : Dev nD) : W6 m ρ c (Proc.devRef .tc main_v63)
    = Cert.Dense.matProd (W4 m ρ c (Proc.devRef .tc main_v60)) (Cert.GcnBn.weight (m ((c : Thread nD τ).loc main_arg3)) 1) := by
  refine (W6_arr m ρ c 2).trans ?_
  rw [Mm.arr2 (V5 m ρ) c]
  show Cert.Dense.matProd (W5 m ρ c (Proc.devRef .tc main_v60)) (W5 m ρ c (Proc.devRef .tc main_v62)) = _
  rw [KCarry.out1_at5 m ρ c, KHost.weights5 m ρ c]

/-- The second layer's output. -/
theorem layer1 (c : Dev nD) : W8 m ρ c (Proc.devRef .tc main_v92)
    = Cert.GcnBn.layer (aggR (m ((c : Thread nD τ).loc main_arg1))) 1 (W4 m ρ c (Proc.devRef .tc main_v60)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W8_arr m ρ c 6).trans ?_
  rw [Bn.arr3 (V7 m ρ) c]
  show Cert.GcnBn.bnRows (W7 m ρ c (Proc.devRef .tc main_v76)) (W7 m ρ c (Proc.devRef .tc main_v79)) (W7 m ρ c (Proc.devRef .tc main_v82))
      (W7 m ρ c (Proc.devRef .tc main_v85)) (W7 m ρ c (Proc.devRef .tc main_v88)) (W7 m ρ c (Proc.devRef .tc main_v91)) = _
  unfold Cert.GcnBn.bnRows Cert.GcnBn.layer
  rw [KHost.agg7 m ρ c, KHost.bias7 m ρ c, KHost.scale7 m ρ c, KHost.shift7 m ρ c, KHost.mean7 m ρ c, KHost.var7 m ρ c, prod6 m ρ c]

/-! ## Layer 2 -/

/-- The third product: the second layer's output by the third layer's weights. -/
theorem prod10 (c : Dev nD) : W10 m ρ c (Proc.devRef .tc main_v95)
    = Cert.Dense.matProd (W8 m ρ c (Proc.devRef .tc main_v92)) (Cert.GcnBn.weight (m ((c : Thread nD τ).loc main_arg3)) 2) := by
  refine (W10_arr m ρ c 2).trans ?_
  rw [Mm.arr4 (V9 m ρ) c]
  show Cert.Dense.matProd (W9 m ρ c (Proc.devRef .tc main_v92)) (W9 m ρ c (Proc.devRef .tc main_v94)) = _
  rw [KCarry.out3_at9 m ρ c, KHost.weights9 m ρ c]

/-- The third layer's output: the program's result. -/
theorem layer2 (c : Dev nD) : W12 m ρ c (Proc.devRef .tc main_v124)
    = Cert.GcnBn.layer (aggR (m ((c : Thread nD τ).loc main_arg1))) 2 (W8 m ρ c (Proc.devRef .tc main_v92)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W12_arr m ρ c 6).trans ?_
  rw [Bn.arr5 (V11 m ρ) c]
  show Cert.GcnBn.bnRows (W11 m ρ c (Proc.devRef .tc main_v108)) (W11 m ρ c (Proc.devRef .tc main_v111)) (W11 m ρ c (Proc.devRef .tc main_v114))
      (W11 m ρ c (Proc.devRef .tc main_v117)) (W11 m ρ c (Proc.devRef .tc main_v120)) (W11 m ρ c (Proc.devRef .tc main_v123)) = _
  unfold Cert.GcnBn.bnRows Cert.GcnBn.layer
  rw [KHost.agg11 m ρ c, KHost.bias11 m ρ c, KHost.scale11 m ρ c, KHost.shift11 m ρ c, KHost.mean11 m ρ c, KHost.var11 m ρ c, prod10 m ρ c]

/-! ## The network -/

/-- The result buffer after the run holds the network of the launch contents. -/
theorem result (c : Dev nD) : W12 m ρ c (Proc.devRef .tc main_v124)
    = Cert.GcnBn.net (aggR (m ((c : Thread nD τ).loc main_arg1))) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [layer2 m ρ c, layer1 m ρ c, layer0 m ρ c]
  rfl

end Cert.KernelIdeal.KVal

end
-- ==== Proof.lean ====
/-
  A three-layer graph encoder: the tiled kernel program against its plain reference, on the extended reals.

  Per layer both programs compute max(γ·((agg(H·W) + b) − μ)·rsqrt(σ² + ε) + β, 0): the product of the node features
  by the layer's weights, its aggregation over the edge list (one function of the edge array, the same in both
  programs), bias, normalisation by running statistics with the same association, and the positive part. The kernel
  program computes the product and the normalisation block of rows by block of rows; a block of rows of either is
  that operation on the block of rows, so the blocks assemble to the whole-array functions the reference applies.
  Nothing cancels or distributes, so no entry needs to be finite and the precondition is never opened.
-/
import proofs.«164004_j66537633349984_1_alg».proof.Defs
import proofs.«164004_j66537633349984_1_alg».proof.Proof.Gen.Kernel
import proofs.«164004_j66537633349984_1_alg».proof.Proof.Gen.Kernel.Skeleton
import proofs.«164004_j66537633349984_1_alg».proof.Proof.Gen.Kernel.Launch
import proofs.«164004_j66537633349984_1_alg».proof.Proof.Gen.Kernel.Points
import proofs.«164004_j66537633349984_1_alg».proof.Proof.Gen.Kernel.Frame
import proofs.«164004_j66537633349984_1_alg».proof.Proof.Gen.KernelIdeal
import proofs.«164004_j66537633349984_1_alg».proof.Proof.Gen.KernelIdeal.Skeleton
import proofs.«164004_j66537633349984_1_alg».proof.Proof.Gen.KernelIdeal.Launch
import proofs.«164004_j66537633349984_1_alg».proof.Proof.Gen.KernelIdeal.Points
import proofs.«164004_j66537633349984_1_alg».proof.Proof.Gen.KernelIdeal.Frame
import proofs.«164004_j66537633349984_1_alg».proof.Proof.Gen.ReferenceIdeal
import proofs.«164004_j66537633349984_1_alg».proof.Proof.Gen.ReferenceIdeal.Run
import proofs.«164004_j66537633349984_1_alg».proof.Proof.Gen.ReferenceIdeal.Read
import proofs.«164004_j66537633349984_1_alg».proof.Proof.Gen.Pre_finite_inputs
import proofs.«164004_j66537633349984_1_alg».proof.Proof.KRun
import proofs.«164004_j66537633349984_1_alg».proof.Proof.RValue
import proofs.«164004_j66537633349984_1_alg».proof.Proof.KLayer
import Idealize.ShloMosaic.Adequacy
import Idealize.ShloMosaic.Init

noncomputable section

namespace Cert.Proof

open Idealize.ShloMosaic Idealize.SL.Sem

/-- The two idealized programs, run from memories that agree on the arguments, end with the same result: the
    three-layer network applied to the arguments, with the edge aggregation both programs share. -/
theorem algebraic : Cert.algebraic_KernelIdeal_ReferenceIdeal := fun m ρ m' ρ' _ hagree =>
  ⟨fun c => Cert.GcnBn.net (Cert.ReferenceIdeal.RefValue.aggR (m ((c.tc : Thread Cert.KernelIdeal.nD Cert.KernelIdeal.τ).loc Cert.KernelIdeal.main_arg1))) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
   (θ_run Cert.KernelIdeal.defs _ _).mono (fun _ h c => ⟨(h c).1.trans (Cert.KernelIdeal.KVal.result m ρ c), (h c).2⟩)
     (Cert.KernelIdeal.KRun.run (F := Ideal) m ρ),
   (θ_run Cert.ReferenceIdeal.defs _ _).mono (fun _ h c => ⟨by
       obtain ⟨h0, h1, -, h3, h4, h5, h6, h7, h8⟩ := hagree c
       rw [(h c).1, Cert.ReferenceIdeal.Read.val_main_v163_eq, Cert.ReferenceIdeal.RefValue.net_eq, h0, h1, h3, h4, h5, h6, h7, h8],
       (h c).2⟩)
     (Cert.ReferenceIdeal.Value.run (F := Ideal) m' ρ')⟩

/-- The certificate: the three programs' frames are the generated ones (the reference's is its run with the result
    dropped), the idealization rewrote nothing, and the two idealized programs agree. -/
theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
